-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x256 : Shape := ⟨3, ![8, 2048, 256]⟩
abbrev S256x256 : Shape := ⟨2, ![256, 256]⟩
abbrev S_ : Shape := ⟨0, ![]⟩

class Facts : Prop where
  bcast_S_S8x2048x256 : S_.BroadcastsInDim S8x2048x256 (![] : Fin 0 → Fin S8x2048x256.rank)
  reducesTo_S8x2048x256_S_d0_1_2 : S8x2048x256.ReducesTo [0, 1, 2] S_
  h_S_ : 0 < S_.numel
  bcast_S_S256x256 : S_.BroadcastsInDim S256x256 (![] : Fin 0 → Fin S256x256.rank)
  reducesTo_S256x256_S_d0_1 : S256x256.ReducesTo [0, 1] S_

variable [Facts]

def fn_part1 {F : FTy → Type} [FloatOps F] (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  main_v18

def fn {F : FTy → Type} [FloatOps F] (main_arg0 : FVec F S8x2048x256 .f32) (main_arg1 : FVec F S256x256 .f32) (main_arg2 : FVec F S256x256 .f32) (main_arg3 : FVec F S256x256 .f32) : IVec S_ 1 :=
  let main_v0 : FVec F S8x2048x256 .f32 := Host.absf main_arg0
  let main_cst : FVec F S_ .f32 := constant S_ .f32 0x7F800000#32
  let main_v1 : FVec F S8x2048x256 .f32 := broadcastInDim S8x2048x256 ![] bcast_S_S8x2048x256 main_cst
  let main_v2 : IVec S8x2048x256 1 := cmpf .olt main_v0 main_v1
  let main_c : IVec S_ 1 := constantI S_ 1 1#1
  let main_v3 : IVec S_ 1 := (fun x v => Host.reduce IntOp.andi x v reducesTo_S8x2048x256_S_d0_1_2 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_v13 main_v16
-- ==== Kernel.lean ====
abbrev S8x2048x256 : Shape := ⟨3, ![8, 2048, 256]⟩
abbrev S256x256 : Shape := ⟨2, ![256, 256]⟩
abbrev S16384x256 : Shape := ⟨2, ![16384, 256]⟩
abbrev S512x256 : Shape := ⟨2, ![512, 256]⟩
abbrev S1x128x256 : Shape := ⟨3, ![1, 128, 256]⟩
abbrev S1x2048x256 : Shape := ⟨3, ![1, 2048, 256]⟩
abbrev S128x256 : Shape := ⟨2, ![128, 256]⟩
abbrev S2048x256 : Shape := ⟨2, ![2048, 256]⟩
abbrev S128x2048 : Shape := ⟨2, ![128, 2048]⟩
abbrev S128 : Shape := ⟨1, ![128]⟩
abbrev S128x1 : Shape := ⟨2, ![128, 1]⟩

abbrev nBuf : Space → Nat
  | .hbm => 12
  | .vmem => 19
  | .smem => 0
  | _ => 0

abbrev bufTy : (tb : Table) → Fin (tcTables nBuf tb) → BufTy
  | .hbm, ⟨0, _⟩ => ⟨S8x2048x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S16384x256, .f32⟩
  | .hbm, ⟨5, _⟩ => ⟨S16384x256, .f32⟩
  | .hbm, ⟨6, _⟩ => ⟨S16384x256, .f32⟩
  | .hbm, ⟨7, _⟩ => ⟨S16384x256, .f32⟩
  | .hbm, ⟨8, _⟩ => ⟨S8x2048x256, .f32⟩
  | .hbm, ⟨9, _⟩ => ⟨S8x2048x256, .f32⟩
  | .hbm, ⟨10, _⟩ => ⟨S8x2048x256, .f32⟩
  | .hbm, ⟨11, _⟩ => ⟨S8x2048x256, .f32⟩
  | .local _ .vmem, ⟨0, _⟩ => ⟨S512x256, .f32⟩
  | .local _ .vmem, ⟨1, _⟩ => ⟨S512x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S1x128x256, .f32⟩
  | .local _ .vmem, ⟨12, _⟩ => ⟨S1x128x256, .f32⟩
  | .local _ .vmem, ⟨13, _⟩ => ⟨S1x2048x256, .f32⟩
  | .local _ .vmem, ⟨14, _⟩ => ⟨S1x2048x256, .f32⟩
  | .local _ .vmem, ⟨15, _⟩ => ⟨S1x2048x256, .f32⟩
  | .local _ .vmem, ⟨16, _⟩ => ⟨S1x2048x256, .f32⟩
  | .local _ .vmem, ⟨17, _⟩ => ⟨S1x128x256, .f32⟩
  | .local _ .vmem, ⟨18, _⟩ => ⟨S1x128x256, .f32⟩
  | _, _ => ⟨S8x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![8, 16], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x128x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x128x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  shapeCasts_S8x2048x256_S16384x256 : S8x2048x256.ShapeCasts S16384x256
  inb_S512x256_S512x256_0_0 : ∀ a, (![0, 0] : Fin 2 → Nat) a + S512x256.size a ≤ S512x256.size a
  h_S512x256 : 0 < S512x256.numel
  shapeCasts_S512x256_S512x256 : S512x256.ShapeCasts S512x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S16384x256_S8x2048x256 : S16384x256.ShapeCasts S8x2048x256
  inb_S1x128x256_S1x128x256_0_0_0 : ∀ a, (![0, 0, 0] : Fin 3 → Nat) a + S1x128x256.size a ≤ S1x128x256.size a
  h_S1x128x256 : 0 < S1x128x256.numel
  shapeCasts_S1x128x256_S128x256 : S1x128x256.ShapeCasts S128x256
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  iota_S128x2048_d0_w32 : S128x2048.Iotas .tc 32 [0]
  iota_S128x2048_d1_w32 : S128x2048.Iotas .tc 32 [1]
  natLt_1_32 : 1 < 32
  reduces_S128x2048_S128 : S128x2048.Reduces [1] S128
  shapeCasts_S128_S128x1 : S128.ShapeCasts S128x1
  broadcasts_S128x1_S128x2048 : S128x1.Broadcasts S128x2048
  shapeCasts_S128x256_S1x128x256 : S128x256.ShapeCasts S1x128x256
  dot_S512x256_S256x256_S512x256_1_1_0_0_n_n_wf : DotDims.WF S512x256 S256x256 S512x256 [1] [1] [0] [0] [] []
  dot_S128x256_S2048x256_S128x2048_1_1_0_0_n_n_wf : DotDims.WF S128x256 S2048x256 S128x2048 [1] [1] [0] [0] [] []
  dot_S128x2048_S2048x256_S128x256_1_0_0_1_n_n_wf : DotDims.WF S128x2048 S2048x256 S128x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S16384x256.size a
  hwx0_0 : ∀ i : grid0.Coords, EltTy.bits .f32 = 32 ∨ (Rect.block (s := S16384x256) S512x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x256.size a ≤ S16384x256.size a
  hwx0_4 : ∀ i : grid0.Coords, EltTy.bits .f32 = 32 ∨ (Rect.block (s := S16384x256) S512x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x256.size a ≤ S16384x256.size a
  hwx0_5 : ∀ i : grid0.Coords, EltTy.bits .f32 = 32 ∨ (Rect.block (s := S16384x256) S512x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x256.size a ≤ S16384x256.size a
  hwx0_6 : ∀ i : grid0.Coords, EltTy.bits .f32 = 32 ∨ (Rect.block (s := S16384x256) S512x256.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x128x256.size a ≤ S8x2048x256.size a
  hwx1_0 : ∀ i : grid1.Coords, EltTy.bits .f32 = 32 ∨ (Rect.block (s := S8x2048x256) S1x128x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x256.size a ≤ S8x2048x256.size a
  hwx1_1 : ∀ i : grid1.Coords, EltTy.bits .f32 = 32 ∨ (Rect.block (s := S8x2048x256) S1x2048x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x256.size a ≤ S8x2048x256.size a
  hwx1_2 : ∀ i : grid1.Coords, EltTy.bits .f32 = 32 ∨ (Rect.block (s := S8x2048x256) S1x2048x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x128x256.size a ≤ S8x2048x256.size a
  hwx1_3 : ∀ i : grid1.Coords, EltTy.bits .f32 = 32 ∨ (Rect.block (s := S8x2048x256) S1x128x256.size (cc1_transform_3 i) (hinb1_3 i)).WholeWords (EltTy.packing .f32)

variable [Facts₀]

def dot_S512x256_S256x256_S512x256_1_1_0_0_n_n : DotDims S512x256 S256x256 S512x256 where
  lhsContracting := [1]
  rhsContracting := [1]
  lhsNonContracting := [0]
  rhsNonContracting := [0]
  lhsBatch := []
  rhsBatch := []
  wf := dot_S512x256_S256x256_S512x256_1_1_0_0_n_n_wf
def dot_S128x256_S2048x256_S128x2048_1_1_0_0_n_n : DotDims S128x256 S2048x256 S128x2048 where
  lhsContracting := [1]
  rhsContracting := [1]
  lhsNonContracting := [0]
  rhsNonContracting := [0]
  lhsBatch := []
  rhsBatch := []
  wf := dot_S128x256_S2048x256_S128x2048_1_1_0_0_n_n_wf
def dot_S128x2048_S2048x256_S128x256_1_0_0_1_n_n : DotDims S128x2048 S2048x256 S128x256 where
  lhsContracting := [1]
  rhsContracting := [0]
  lhsNonContracting := [0]
  rhsNonContracting := [1]
  lhsBatch := []
  rhsBatch := []
  wf := dot_S128x2048_S2048x256_S128x256_1_0_0_1_n_n_wf

abbrev win0_0 : Pipeline.Window sig grid0 :=
  Pipeline.Window.ofSpec (Memref.whole main_v0) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1_0) S512x256.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_1) S512x256.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v1_2) S512x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v2) S1x128x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1x2048x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x2048x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5) S1x128x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8x2048x256 : Shape := ⟨3, ![8, 2048, 256]⟩
abbrev S256x256 : Shape := ⟨2, ![256, 256]⟩
abbrev S8x2048x2048 : Shape := ⟨3, ![8, 2048, 2048]⟩
abbrev S_ : Shape := ⟨0, ![]⟩
abbrev S2048x2048 : Shape := ⟨2, ![2048, 2048]⟩
abbrev S1x2048x2048 : Shape := ⟨3, ![1, 2048, 2048]⟩
abbrev S8x2048 : Shape := ⟨2, ![8, 2048]⟩
abbrev S8x2048x1 : Shape := ⟨3, ![8, 2048, 1]⟩

abbrev nBuf : Space → Nat
  | .hbm => 46
  | .vmem => 0
  | .smem => 0
  | _ => 0

abbrev bufTy : (tb : Table) → Fin (tcTables nBuf tb) → BufTy
  | .hbm, ⟨0, _⟩ => ⟨S8x2048x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S8x2048x256, .f32⟩
  | .hbm, ⟨5, _⟩ => ⟨S8x2048x256, .f32⟩
  | .hbm, ⟨6, _⟩ => ⟨S8x2048x256, .f32⟩
  | .hbm, ⟨7, _⟩ => ⟨S8x2048x2048, .f32⟩
  | .hbm, ⟨8, _⟩ => ⟨S_, .f32⟩
  | .hbm, ⟨9, _⟩ => ⟨S8x2048x2048, .f32⟩
  | .hbm, ⟨10, _⟩ => ⟨S8x2048x2048, .f32⟩
  | .hbm, ⟨11, _⟩ => ⟨S_, .f32⟩
  | .hbm, ⟨12, _⟩ => ⟨S2048x2048, .f32⟩
  | .hbm, ⟨13, _⟩ => ⟨S2048x2048, .i32⟩
  | .hbm, ⟨14, _⟩ => ⟨S_, .i32⟩
  | .hbm, ⟨15, _⟩ => ⟨S2048x2048, .i32⟩
  | .hbm, ⟨16, _⟩ => ⟨S2048x2048, .i32⟩
  | .hbm, ⟨17, _⟩ => ⟨S2048x2048, .i32⟩
  | .hbm, ⟨18, _⟩ => ⟨S2048x2048, .i1⟩
  | .hbm, ⟨19, _⟩ => ⟨S_, .f32⟩
  | .hbm, ⟨20, _⟩ => ⟨S2048x2048, .f32⟩
  | .hbm, ⟨21, _⟩ => ⟨S2048x2048, .f32⟩
  | .hbm, ⟨22, _⟩ => ⟨S_, .f32⟩
  | .hbm, ⟨23, _⟩ => ⟨S8x2048x2048, .f32⟩
  | .hbm, ⟨24, _⟩ => ⟨S8x2048x2048, .i1⟩
  | .hbm, ⟨25, _⟩ => ⟨S_, .f32⟩
  | .hbm, ⟨26, _⟩ => ⟨S8x2048x2048, .f32⟩
  | .hbm, ⟨27, _⟩ => ⟨S1x2048x2048, .f32⟩
  | .hbm, ⟨28, _⟩ => ⟨S8x2048x2048, .f32⟩
  | .hbm, ⟨29, _⟩ => ⟨S8x2048x2048, .f32⟩
  | .hbm, ⟨30, _⟩ => ⟨S_, .f32⟩
  | .hbm, ⟨31, _⟩ => ⟨S8x2048, .f32⟩
  | .hbm, ⟨32, _⟩ => ⟨S8x2048x1, .f32⟩
  | .hbm, ⟨33, _⟩ => ⟨S8x2048x2048, .f32⟩
  | .hbm, ⟨34, _⟩ => ⟨S8x2048x2048, .f32⟩
  | .hbm, ⟨35, _⟩ => ⟨S8x2048x2048, .f32⟩
  | .hbm, ⟨36, _⟩ => ⟨S8x2048x2048, .f32⟩
  | .hbm, ⟨37, _⟩ => ⟨S_, .f32⟩
  | .hbm, ⟨38, _⟩ => ⟨S8x2048, .f32⟩
  | .hbm, ⟨39, _⟩ => ⟨S8x2048x1, .f32⟩
  | .hbm, ⟨40, _⟩ => ⟨S_, .f32⟩
  | .hbm, ⟨41, _⟩ => ⟨S8x2048x1, .f32⟩
  | .hbm, ⟨42, _⟩ => ⟨S8x2048x1, .f32⟩
  | .hbm, ⟨43, _⟩ => ⟨S8x2048x2048, .f32⟩
  | .hbm, ⟨44, _⟩ => ⟨S8x2048x2048, .f32⟩
  | .hbm, ⟨45, _⟩ => ⟨S8x2048x256, .f32⟩
  | _, _ => ⟨S8x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_call0_v0 : Ref sig .tc := ⟨.hbm, 13, rfl⟩
abbrev main_call0_c : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_cst : Ref sig .tc := ⟨.hbm, 19, rfl⟩
abbrev main_call0_v5 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_cst_2 : Ref sig .tc := ⟨.hbm, 25, rfl⟩
abbrev main_v10 : Ref sig .tc := ⟨.hbm, 26, rfl⟩
abbrev main_v11 : Ref sig .tc := ⟨.hbm, 27, rfl⟩
abbrev main_call1_v0 : Ref sig .tc := ⟨.hbm, 28, rfl⟩
abbrev main_v12 : Ref sig .tc := ⟨.hbm, 29, rfl⟩
abbrev main_cst_3 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_4 : Ref sig .tc := ⟨.hbm, 37, rfl⟩
abbrev main_v19 : Ref sig .tc := ⟨.hbm, 38, rfl⟩
abbrev main_v20 : Ref sig .tc := ⟨.hbm, 39, rfl⟩
abbrev main_cst_5 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩

abbrev nD : Nat := 1
abbrev τ : Topo := Topo.v7x

variable {F : FTy → Type} [FloatOps F]

class Facts₀ : Prop where
  bcast_S_S8x2048x2048 : S_.BroadcastsInDim S8x2048x2048 (![] : Fin 0 → Fin S8x2048x2048.rank)
  bcast_S_S2048x2048 : S_.BroadcastsInDim S2048x2048 (![] : Fin 0 → Fin S2048x2048.rank)
  bcast_S2048x2048_S1x2048x2048_1_2 : S2048x2048.BroadcastsInDim S1x2048x2048 (![1, 2] : Fin 2 → Fin S1x2048x2048.rank)
  bcast_S1x2048x2048_S8x2048x2048_0_1_2 : S1x2048x2048.BroadcastsInDim S8x2048x2048 (![0, 1, 2] : Fin 3 → Fin S8x2048x2048.rank)
  reducesTo_S8x2048x2048_S8x2048_d2 : S8x2048x2048.ReducesTo [2] S8x2048
  h_S_ : 0 < S_.numel
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  bcast_S_S8x2048x1 : S_.BroadcastsInDim S8x2048x1 (![] : Fin 0 → Fin S8x2048x1.rank)
  dot_S8x2048x256_S256x256_S8x2048x256_2_1_01_0_n_n_wf : DotDims.WF S8x2048x256 S256x256 S8x2048x256 [2] [1] [0, 1] [0] [] []
  dot_S8x2048x256_S8x2048x256_S8x2048x2048_2_2_1_1_0_0_wf : DotDims.WF S8x2048x256 S8x2048x256 S8x2048x2048 [2] [2] [1] [1] [0] [0]
  dot_S8x2048x2048_S8x2048x256_S8x2048x256_2_1_1_2_0_0_wf : DotDims.WF S8x2048x2048 S8x2048x256 S8x2048x256 [2] [1] [1] [2] [0] [0]

variable [Facts₀]

def dot_S8x2048x256_S256x256_S8x2048x256_2_1_01_0_n_n : DotDims S8x2048x256 S256x256 S8x2048x256 where
  lhsContracting := [2]
  rhsContracting := [1]
  lhsNonContracting := [0, 1]
  rhsNonContracting := [0]
  lhsBatch := []
  rhsBatch := []
  wf := dot_S8x2048x256_S256x256_S8x2048x256_2_1_01_0_n_n_wf
def dot_S8x2048x256_S8x2048x256_S8x2048x2048_2_2_1_1_0_0 : DotDims S8x2048x256 S8x2048x256 S8x2048x2048 where
  lhsContracting := [2]
  rhsContracting := [2]
  lhsNonContracting := [1]
  rhsNonContracting := [1]
  lhsBatch := [0]
  rhsBatch := [0]
  wf := dot_S8x2048x256_S8x2048x256_S8x2048x2048_2_2_1_1_0_0_wf
def dot_S8x2048x2048_S8x2048x256_S8x2048x256_2_1_1_2_0_0 : DotDims S8x2048x2048 S8x2048x256 S8x2048x256 where
  lhsContracting := [2]
  rhsContracting := [1]
  lhsNonContracting := [1]
  rhsNonContracting := [2]
  lhsBatch := [0]
  rhsBatch := [0]
  wf := dot_S8x2048x2048_S8x2048x256_S8x2048x256_2_1_1_2_0_0_wf

class Facts : Prop extends Facts₀ where

variable [Facts]
-- ==== Proof.KernelRun.lean ====
/-
  The idealized kernel's run with its result array NAMED, and the arrays the host operations hand from one region to the next.

  The program is: reshape the activations [8,2048,256] to [16384,256]; region 0 (the three projections, 32 row blocks of
  512 rows); reshape each projection back to [8,2048,256]; region 1 (attention, one block of 128 query rows per grid point
  (batch, query block)). Every weakly fair execution terminates with the result buffer at what region 1's write-backs
  leave (`arrAt 3` of its pipeline data) and the four arguments as launched. Region 1 is entered with its three input
  arrays at the reshapes of what region 0's write-backs leave (`arrAt 4/5/6`), and region 0 with its first input at the
  reshape of the activations and its three weight inputs as launched.
-/
import proofs.«158596_j65249143161555_1_alg».proof.Proof.FrameKernelIdeal
import Idealize.ShloMosaic.Lib.StableHlo.Run
import Idealize.ShloMosaic.Lib.Pipeline.Value
import Idealize.ShloMosaic.PureOps.Ideal

noncomputable section

namespace Cert.KernelIdeal.RunValue

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The run, with the result array named -/

set_option backward.isDefEq.respectTransparency.types false in
/-- Every weakly fair execution of the program terminates, nothing faulting; the result buffer ends at what the
    attention region's write-backs leave, the argument arrays as launched. -/
theorem run_blocks : θ_run defs (onTc (τ := τ) (main (F := F))) ⟨m, fun _ => 0, ρ⟩ (fun r => ∀ c : Dev nD,
      r.2.mem ((c.tc : Thread nD τ).loc main_v5) = (dat1 (V3 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v5 (by decide))).trans (W4_arr m ρ c 3),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)

/-! ## What each region is entered with -/

/-- Region 0's first input is the activations regrouped to [16384, 256]. -/
theorem V1_main_v0 (c : Dev nD) :
    V1 m ρ c main_v0 = shapeCast S16384x256 (m ((c.tc : Thread nD τ).loc main_arg0)) shapeCasts_S8x2048x256_S16384x256 := by
  show StableHlo.after hostOps0 (W0 m ρ c) (Proc.devRef .tc main_v0) = _
  after_results <;> rfl

/-- Region 0's weight inputs are the weight arguments as launched. -/
theorem V1_main_arg1 (c : Dev nD) : V1 m ρ c main_arg1 = m ((c.tc : Thread nD τ).loc main_arg1) := by
  show StableHlo.after hostOps0 (W0 m ρ c) (Proc.devRef .tc main_arg1) = _
  after_results <;> rfl
theorem V1_main_arg2 (c : Dev nD) : V1 m ρ c main_arg2 = m ((c.tc : Thread nD τ).loc main_arg2) := by
  show StableHlo.after hostOps0 (W0 m ρ c) (Proc.devRef .tc main_arg2) = _
  after_results <;> rfl
theorem V1_main_arg3 (c : Dev nD) : V1 m ρ c main_arg3 = m ((c.tc : Thread nD τ).loc main_arg3) := by
  show StableHlo.after hostOps0 (W0 m ρ c) (Proc.devRef .tc main_arg3) = _
  after_results <;> rfl

/-- Region 1's query input is region 0's first result regrouped to [8, 2048, 256]; -/
theorem V3_main_v2 (c : Dev nD) :
    V3 m ρ c main_v2 = shapeCast S8x2048x256 ((dat0 (V1 m ρ) c).arrAt 4 cfg0.N) shapeCasts_S16384x256_S8x2048x256 := by
  show StableHlo.after hostOps1 (W2 m ρ c) (Proc.devRef .tc main_v2) = _
  after_results
  rw [W2_arr m ρ c 4]
  rfl
/-- its key input region 0's second result, -/
theorem V3_main_v3 (c : Dev nD) :
    V3 m ρ c main_v3 = shapeCast S8x2048x256 ((dat0 (V1 m ρ) c).arrAt 5 cfg0.N) shapeCasts_S16384x256_S8x2048x256 := by
  show StableHlo.after hostOps1 (W2 m ρ c) (Proc.devRef .tc main_v3) = _
  after_results
  rw [W2_arr m ρ c 5]
  rfl
/-- and its value input region 0's third. -/
theorem V3_main_v4 (c : Dev nD) :
    V3 m ρ c main_v4 = shapeCast S8x2048x256 ((dat0 (V1 m ρ) c).arrAt 6 cfg0.N) shapeCasts_S16384x256_S8x2048x256 := by
  show StableHlo.after hostOps1 (W2 m ρ c) (Proc.devRef .tc main_v4) = _
  after_results
  rw [W2_arr m ρ c 6]
  rfl

end Cert.KernelIdeal.RunValue

end
-- ==== Proof.ProjValue.lean ====
/-
  Region 0, the three projections: each result array [16384, 256] ends holding, at (r, e), the sum over the 256 model
  lanes of row r of the regrouped activations times row e of the weight matrix.
-/
import proofs.«158596_j65249143161555_1_alg».proof.Proof.FrameKernelIdeal
import Idealize.ShloMosaic.Lib.Pipeline.Value
import Idealize.ShloMosaic.Lib.ValueIdx
import Idealize.ShloMosaic.PureOps.Ideal
import Idealize.ShloMosaic.PureOps.Ideal.Laws

noncomputable section

namespace Cert.KernelIdeal.ProjValue

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat)

/-- Row `r` of `X` against row `e` of `W`: entry (r, e) of `X · Wᵀ`. -/
def rowDot {N : ℕ} (X : (⟨2, ![N, 256]⟩ : Shape).Idx → EReal) (W : (⟨2, ![256, 256]⟩ : Shape).Idx → EReal) (r : Fin N) (e : Fin 256) : EReal :=
  ∑ d : Fin 256, X (ix2 r d) * W (ix2 e d)

/-- `X · Wᵀ` as an array. -/
def matT {N : ℕ} (X : (⟨2, ![N, 256]⟩ : Shape).Idx → EReal) (W : (⟨2, ![256, 256]⟩ : Shape).Idx → EReal) : (⟨2, ![N, 256]⟩ : Shape).Idx → EReal :=
  fun i => rowDot X W (i 0) (i 1)

/-! ## The contraction's operand indices -/

theorem lhs0 (j : S512x256.Idx) (q : dot_S512x256_S256x256_S512x256_1_1_0_0_n_n.contr.Idx) :
    (dot_S512x256_S256x256_S512x256_1_1_0_0_n_n.lhsIdx j q 0).val = (j 0).val := by
  unfold DotDims.lhsIdx
  rw [dif_neg (show ¬(0 : Fin S512x256.rank) ∈ dot_S512x256_S256x256_S512x256_1_1_0_0_n_n.lhsBatch by decide), dif_pos (show (0 : Fin S512x256.rank) ∈ dot_S512x256_S256x256_S512x256_1_1_0_0_n_n.lhsNonContracting by decide)]
  rfl
theorem lhs1 (j : S512x256.Idx) (q : dot_S512x256_S256x256_S512x256_1_1_0_0_n_n.contr.Idx) :
    (dot_S512x256_S256x256_S512x256_1_1_0_0_n_n.lhsIdx j q 1).val = (q ⟨0, by decide⟩).val :=
  dot_S512x256_S256x256_S512x256_1_1_0_0_n_n.lhsIdx_val_of_single rfl j q
theorem rhs0 (j : S512x256.Idx) (q : dot_S512x256_S256x256_S512x256_1_1_0_0_n_n.contr.Idx) :
    (dot_S512x256_S256x256_S512x256_1_1_0_0_n_n.rhsIdx j q 0).val = (j 1).val := by
  unfold DotDims.rhsIdx
  rw [dif_neg (show ¬(0 : Fin S256x256.rank) ∈ dot_S512x256_S256x256_S512x256_1_1_0_0_n_n.rhsBatch by decide), dif_pos (show (0 : Fin S256x256.rank) ∈ dot_S512x256_S256x256_S512x256_1_1_0_0_n_n.rhsNonContracting by decide)]
  rfl
theorem rhs1 (j : S512x256.Idx) (q : dot_S512x256_S256x256_S512x256_1_1_0_0_n_n.contr.Idx) :
    (dot_S512x256_S256x256_S512x256_1_1_0_0_n_n.rhsIdx j q 1).val = (q ⟨0, by decide⟩).val :=
  dot_S512x256_S256x256_S512x256_1_1_0_0_n_n.rhsIdx_val_of_single rfl j q

/-- The tile product into a zero accumulator, at (p, e): the sum over the lanes of row p of the left tile times row e
    of the right one. -/
theorem tileDot (a : FVec Ideal S512x256 .bf16) (b : FVec Ideal S256x256 .bf16) (p : Fin 512) (e : Fin 256) :
    FloatOps.matmul dot_S512x256_S256x256_S512x256_1_1_0_0_n_n none a b (constant (F := Ideal) S512x256 .f32 0x00000000#32) (ix2 p e)
      = ∑ d : Fin 256, a (ix2 p d) * b (ix2 e d) := by
  rw [Ideal.matmul_constant_zero_apply, ← Equiv.sum_comp (contrEquiv1 dot_S512x256_S256x256_S512x256_1_1_0_0_n_n 256 rfl rfl).symm]
  refine Finset.sum_congr rfl fun k _ => ?_
  have hk := contrEquiv1_symm_val dot_S512x256_S256x256_S512x256_1_1_0_0_n_n 256 rfl rfl k
  have el : dot_S512x256_S256x256_S512x256_1_1_0_0_n_n.lhsIdx (ix2 p e) ((contrEquiv1 dot_S512x256_S256x256_S512x256_1_1_0_0_n_n 256 rfl rfl).symm k) = ix2 p k := funext fun ax => Fin.ext (by
    match ax with
    | ⟨0, _⟩ => exact lhs0 _ _
    | ⟨1, _⟩ => exact (lhs1 _ _).trans hk)
  have er : dot_S512x256_S256x256_S512x256_1_1_0_0_n_n.rhsIdx (ix2 p e) ((contrEquiv1 dot_S512x256_S256x256_S512x256_1_1_0_0_n_n 256 rfl rfl).symm k) = ix2 e k := funext fun ax => Fin.ext (by
    match ax with
    | ⟨0, _⟩ => exact rhs0 _ _
    | ⟨1, _⟩ => exact (rhs1 _ _).trans hk)
  rw [el, er]

/-- The three payloads at (p, e). -/
theorem pay2_apply (x0 : Vec Ideal S512x256 .f32) (x1 : Vec Ideal S256x256 .f32) (p : Fin 512) (e : Fin 256) :
    k0_pay2 (F := Ideal) x0 x1 (ix2 p e) = ∑ d : Fin 256, x0 (ix2 p d) * x1 (ix2 e d) := by
  unfold k0_pay2 k0_pay1
  refine (tileDot _ _ p e).trans ?_
  rw [shapeCast_self]
  rfl
theorem pay3_apply (x0 : Vec Ideal S512x256 .f32) (x1 : Vec Ideal S256x256 .f32) (p : Fin 512) (e : Fin 256) :
    k0_pay3 (F := Ideal) x0 x1 (ix2 p e) = ∑ d : Fin 256, x0 (ix2 p d) * x1 (ix2 e d) := by
  unfold k0_pay3 k0_pay1
  refine (tileDot _ _ p e).trans ?_
  rw [shapeCast_self]
  rfl
theorem pay4_apply (x0 : Vec Ideal S512x256 .f32) (x1 : Vec Ideal S256x256 .f32) (p : Fin 512) (e : Fin 256) :
    k0_pay4 (F := Ideal) x0 x1 (ix2 p e) = ∑ d : Fin 256, x0 (ix2 p d) * x1 (ix2 e d) := by
  unfold k0_pay4 k0_pay1
  refine (tileDot _ _ p e).trans ?_
  rw [shapeCast_self]
  rfl

/-! ## From blocks to the arrays -/

section Arrays

variable (V : (c : Dev nD) → (b : Ref sig .tc) → Buf (Elt Ideal) ((c : Thread nD τ).loc b))

theorem hz : (![0, 0] : Fin 2 → Nat) = fun _ => 0 := funext fun a => by fin_cases a <;> rfl

/-- The printed index maps over the 32 grid points: the activation window and the three result windows sit at row block
    `t`, the weight windows at the whole matrix. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- Where an element of the activation block of point `t` sits in its array: row `512 t + p`, the same lane. -/
theorem emb0 (t : Fin cfg0.N) (p : Fin 512) (d : Fin 256) (r : Fin 16384) (hr : r.val = t.val * 512 + p.val) :
    ((cfg0.win 0).blk t).view.emb (ix2 p d) = (ix2 r d : S16384x256.Idx) := by
  obtain ⟨e0, e1, -⟩ := idx_facts t
  funext a; apply Fin.ext
  match a with
  | ⟨0, _⟩ => show win0_0.index t (0 : Fin 2) * 512 + 1 * p.val = r.val; omega
  | ⟨1, _⟩ => show win0_0.index t (1 : Fin 2) * 256 + 1 * d.val = d.val; omega

/-- A weight window's block is the whole matrix. -/
theorem emb1 (t : Fin cfg0.N) (e : Fin 256) (d : Fin 256) :
    ((cfg0.win 1).blk t).view.emb (ix2 e d) = (ix2 e d : S256x256.Idx) := by
  obtain ⟨-, -, e0, e1, -⟩ := idx_facts t
  funext a; apply Fin.ext
  match a with
  | ⟨0, _⟩ => show win0_1.index t (0 : Fin 2) * 256 + 1 * e.val = e.val; omega
  | ⟨1, _⟩ => show win0_1.index t (1 : Fin 2) * 256 + 1 * d.val = d.val; omega
theorem emb2 (t : Fin cfg0.N) (e : Fin 256) (d : Fin 256) :
    ((cfg0.win 2).blk t).view.emb (ix2 e d) = (ix2 e d : S256x256.Idx) := by
  obtain ⟨-, -, -, -, e0, e1, -⟩ := idx_facts t
  funext a; apply Fin.ext
  match a with
  | ⟨0, _⟩ => show win0_2.index t (0 : Fin 2) * 256 + 1 * e.val = e.val; omega
  | ⟨1, _⟩ => show win0_2.index t (1 : Fin 2) * 256 + 1 * d.val = d.val; omega
theorem emb3 (t : Fin cfg0.N) (e : Fin 256) (d : Fin 256) :
    ((cfg0.win 3).blk t).view.emb (ix2 e d) = (ix2 e d : S256x256.Idx) := by
  obtain ⟨-, -, -, -, -, -, e0, e1, -⟩ := idx_facts t
  funext a; apply Fin.ext
  match a with
  | ⟨0, _⟩ => show win0_3.index t (0 : Fin 2) * 256 + 1 * e.val = e.val; omega
  | ⟨1, _⟩ => show win0_3.index t (1 : Fin 2) * 256 + 1 * d.val = d.val; omega

/-- Where an element of a result block of point `t` sits: row `512 t + p`, lane `e`. -/
theorem emb4 (t : Fin cfg0.N) (p : Fin 512) (e : Fin 256) (r : Fin 16384) (hr : r.val = t.val * 512 + p.val) :
    ((cfg0.win 4).blk t).view.emb (ix2 p e) = (ix2 r e : S16384x256.Idx) := by
  obtain ⟨-, -, -, -, -, -, -, -, e0, e1, -⟩ := idx_facts t
  funext a; apply Fin.ext
  match a with
  | ⟨0, _⟩ => show win0_4.index t (0 : Fin 2) * 512 + 1 * p.val = r.val; omega
  | ⟨1, _⟩ => show win0_4.index t (1 : Fin 2) * 256 + 1 * e.val = e.val; omega
theorem emb5 (t : Fin cfg0.N) (p : Fin 512) (e : Fin 256) (r : Fin 16384) (hr : r.val = t.val * 512 + p.val) :
    ((cfg0.win 5).blk t).view.emb (ix2 p e) = (ix2 r e : S16384x256.Idx) := by
  obtain ⟨-, -, -, -, -, -, -, -, -, -, e0, e1, -⟩ := idx_facts t
  funext a; apply Fin.ext
  match a with
  | ⟨0, _⟩ => show win0_5.index t (0 : Fin 2) * 512 + 1 * p.val = r.val; omega
  | ⟨1, _⟩ => show win0_5.index t (1 : Fin 2) * 256 + 1 * e.val = e.val; omega
theorem emb6 (t : Fin cfg0.N) (p : Fin 512) (e : Fin 256) (r : Fin 16384) (hr : r.val = t.val * 512 + p.val) :
    ((cfg0.win 6).blk t).view.emb (ix2 p e) = (ix2 r e : S16384x256.Idx) := by
  obtain ⟨-, -, -, -, -, -, -, -, -, -, -, -, e0, e1⟩ := idx_facts t
  funext a; apply Fin.ext
  match a with
  | ⟨0, _⟩ => show win0_6.index t (0 : Fin 2) * 512 + 1 * p.val = r.val; omega
  | ⟨1, _⟩ => show win0_6.index t (1 : Fin 2) * 256 + 1 * e.val = e.val; omega

/-- The activation block of point `t` at (p, d) is the array at (512 t + p, d). -/
theorem iblk0_0_apply (c : Dev nD) (t : Fin cfg0.N) (p : Fin 512) (d : Fin 256) (r : Fin 16384) (hr : r.val = t.val * 512 + p.val) :
    iblk0 V c 0 t (ix2 p d) = (V c main_v0 : S16384x256.Idx → EReal) (ix2 r d) :=
  congrArg (V c main_v0 : S16384x256.Idx → EReal) (emb0 t p d r hr)
/-- A weight block at (e, d) is the weight matrix there. -/
theorem iblk0_1_apply (c : Dev nD) (t : Fin cfg0.N) (e : Fin 256) (d : Fin 256) :
    iblk0 V c 1 t (ix2 e d) = (V c main_arg1 : S256x256.Idx → EReal) (ix2 e d) :=
  congrArg (V c main_arg1 : S256x256.Idx → EReal) (emb1 t e d)
theorem iblk0_2_apply (c : Dev nD) (t : Fin cfg0.N) (e : Fin 256) (d : Fin 256) :
    iblk0 V c 2 t (ix2 e d) = (V c main_arg2 : S256x256.Idx → EReal) (ix2 e d) :=
  congrArg (V c main_arg2 : S256x256.Idx → EReal) (emb2 t e d)
theorem iblk0_3_apply (c : Dev nD) (t : Fin cfg0.N) (e : Fin 256) (d : Fin 256) :
    iblk0 V c 3 t (ix2 e d) = (V c main_arg3 : S256x256.Idx → EReal) (ix2 e d) :=
  congrArg (V c main_arg3 : S256x256.Idx → EReal) (emb3 t e d)

/-- What point `t` writes back to the first result is block `t` of `X · WQᵀ`. -/
theorem flushed4_eq (c : Dev nD) (t : Fin cfg0.N) :
    (dat0 V c).flushed 4 t = ((cfg0.win 4).blk t).view.read (Elt Ideal) (matT (V c main_v0) (V c main_arg1)) := by
  show (cfg0.win 4).cut (grid0.coords t) ((dat0 V c).after 4 t) = _
  rw [after0_4]
  unfold out0_4
  rw [View.canon_unit_zero hz]
  simp only [View.ld_unit_zero (S := S512x256) hz, View.ld_unit_zero (S := S256x256) hz]
  funext j
  obtain ⟨p, e, rfl⟩ : ∃ (p : Fin 512) (e : Fin 256), j = ix2 p e := ⟨j 0, j 1, eq_ix2 j⟩
  have ht : t.val < 32 := lt_of_lt_of_eq t.isLt N_0
  show k0_pay2 (iblk0 V c 0 t) (iblk0 V c 1 t) (ix2 p e) = matT (V c main_v0) (V c main_arg1) (((cfg0.win 4).blk t).view.emb (ix2 p e))
  rw [pay2_apply, emb4 t p e ⟨t.val * 512 + p.val, by omega⟩ rfl]
  unfold matT rowDot
  refine Finset.sum_congr rfl fun d _ => ?_
  rw [iblk0_0_apply V c t p d ⟨t.val * 512 + p.val, by omega⟩ rfl, iblk0_1_apply V c t e d]

/-- What point `t` writes back to the second result is block `t` of `X · WKᵀ`. -/
theorem flushed5_eq (c : Dev nD) (t : Fin cfg0.N) :
    (dat0 V c).flushed 5 t = ((cfg0.win 5).blk t).view.read (Elt Ideal) (matT (V c main_v0) (V c main_arg2)) := by
  show (cfg0.win 5).cut (grid0.coords t) ((dat0 V c).after 5 t) = _
  rw [after0_5]
  unfold out0_5
  rw [View.canon_unit_zero hz]
  simp only [View.ld_unit_zero (S := S512x256) hz, View.ld_unit_zero (S := S256x256) hz]
  funext j
  obtain ⟨p, e, rfl⟩ : ∃ (p : Fin 512) (e : Fin 256), j = ix2 p e := ⟨j 0, j 1, eq_ix2 j⟩
  have ht : t.val < 32 := lt_of_lt_of_eq t.isLt N_0
  show k0_pay3 (iblk0 V c 0 t) (iblk0 V c 2 t) (ix2 p e) = matT (V c main_v0) (V c main_arg2) (((cfg0.win 5).blk t).view.emb (ix2 p e))
  rw [pay3_apply, emb5 t p e ⟨t.val * 512 + p.val, by omega⟩ rfl]
  unfold matT rowDot
  refine Finset.sum_congr rfl fun d _ => ?_
  rw [iblk0_0_apply V c t p d ⟨t.val * 512 + p.val, by omega⟩ rfl, iblk0_2_apply V c t e d]

/-- What point `t` writes back to the third result is block `t` of `X · WVᵀ`. -/
theorem flushed6_eq (c : Dev nD) (t : Fin cfg0.N) :
    (dat0 V c).flushed 6 t = ((cfg0.win 6).blk t).view.read (Elt Ideal) (matT (V c main_v0) (V c main_arg3)) := by
  show (cfg0.win 6).cut (grid0.coords t) ((dat0 V c).after 6 t) = _
  rw [after0_6]
  unfold out0_6
  rw [View.canon_unit_zero hz]
  simp only [View.ld_unit_zero (S := S512x256) hz, View.ld_unit_zero (S := S256x256) hz]
  funext j
  obtain ⟨p, e, rfl⟩ : ∃ (p : Fin 512) (e : Fin 256), j = ix2 p e := ⟨j 0, j 1, eq_ix2 j⟩
  have ht : t.val < 32 := lt_of_lt_of_eq t.isLt N_0
  show k0_pay4 (iblk0 V c 0 t) (iblk0 V c 3 t) (ix2 p e) = matT (V c main_v0) (V c main_arg3) (((cfg0.win 6).blk t).view.emb (ix2 p e))
  rw [pay4_apply, emb6 t p e ⟨t.val * 512 + p.val, by omega⟩ rfl]
  unfold matT rowDot
  refine Finset.sum_congr rfl fun d _ => ?_
  rw [iblk0_0_apply V c t p d ⟨t.val * 512 + p.val, by omega⟩ rfl, iblk0_3_apply V c t e d]

/-- An index of result 1 is in point `t`'s block iff each coordinate is in the block's range on its axis. -/
theorem mem_blk4 (t : Fin cfg0.N) (i : S16384x256.Idx) :
    i ∈ ((cfg0.win 4).blk t).view.set ↔ ∀ a : Fin 2, win0_4.index t a * S512x256.size a ≤ (i a).val ∧ (i a).val < win0_4.index t a * S512x256.size a + S512x256.size a := by
  show i ∈ ((View.whole main_v1_0).slice (win0_4.rect t)).set ↔ _
  rw [View.set_slice_whole, Rect.mem_set_unit]
  exact Iff.rfl

/-- Row `r` lies in the block of point `r / 512`: the 32 blocks cover the array. -/
theorem cover4 (i : S16384x256.Idx) : ∃ t : Fin cfg0.N, (cfg0.win 4).flush t = true ∧ i ∈ ((cfg0.win 4).blk t).view.set := by
  have hi0 : (i 0).val < 16384 := (i 0).isLt
  have hi1 : (i 1).val < 256 := (i 1).isLt
  have hN : cfg0.N = 32 := N_0
  refine ⟨⟨(i 0).val / 512, by rw [hN]; omega⟩, flush0_4 _, ?_⟩
  obtain ⟨-, -, -, -, -, -, -, -, e0, e1, -⟩ := idx_facts ⟨(i 0).val / 512, by rw [hN]; omega⟩
  rw [mem_blk4]
  intro a
  match a with
  | ⟨0, _⟩ =>
    show win0_4.index _ (0 : Fin 2) * 512 ≤ (i 0).val ∧ (i 0).val < win0_4.index _ (0 : Fin 2) * 512 + 512
    rw [e0]; show (i 0).val / 512 * 512 ≤ (i 0).val ∧ (i 0).val < (i 0).val / 512 * 512 + 512; omega
  | ⟨1, _⟩ =>
    show win0_4.index _ (1 : Fin 2) * 256 ≤ (i 1).val ∧ (i 1).val < win0_4.index _ (1 : Fin 2) * 256 + 256
    rw [e1]; omega

/-- Result 1 after the region: `X · Wᵀ` of the regrouped activations and its weight matrix. -/
theorem final4 (c : Dev nD) : (dat0 V c).arrAt 4 cfg0.N = matT (V c main_v0) (V c main_arg1) :=
  (dat0 V c).arrAt_eq_of_cover 4 _ (fun t _ => flushed4_eq V c t) cover4

/-- An index of result 2 is in point `t`'s block iff each coordinate is in the block's range on its axis. -/
theorem mem_blk5 (t : Fin cfg0.N) (i : S16384x256.Idx) :
    i ∈ ((cfg0.win 5).blk t).view.set ↔ ∀ a : Fin 2, win0_5.index t a * S512x256.size a ≤ (i a).val ∧ (i a).val < win0_5.index t a * S512x256.size a + S512x256.size a := by
  show i ∈ ((View.whole main_v1_1).slice (win0_5.rect t)).set ↔ _
  rw [View.set_slice_whole, Rect.mem_set_unit]
  exact Iff.rfl

/-- Row `r` lies in the block of point `r / 512`: the 32 blocks cover the array. -/
theorem cover5 (i : S16384x256.Idx) : ∃ t : Fin cfg0.N, (cfg0.win 5).flush t = true ∧ i ∈ ((cfg0.win 5).blk t).view.set := by
  have hi0 : (i 0).val < 16384 := (i 0).isLt
  have hi1 : (i 1).val < 256 := (i 1).isLt
  have hN : cfg0.N = 32 := N_0
  refine ⟨⟨(i 0).val / 512, by rw [hN]; omega⟩, flush0_5 _, ?_⟩
  obtain ⟨-, -, -, -, -, -, -, -, -, -, e0, e1, -⟩ := idx_facts ⟨(i 0).val / 512, by rw [hN]; omega⟩
  rw [mem_blk5]
  intro a
  match a with
  | ⟨0, _⟩ =>
    show win0_5.index _ (0 : Fin 2) * 512 ≤ (i 0).val ∧ (i 0).val < win0_5.index _ (0 : Fin 2) * 512 + 512
    rw [e0]; show (i 0).val / 512 * 512 ≤ (i 0).val ∧ (i 0).val < (i 0).val / 512 * 512 + 512; omega
  | ⟨1, _⟩ =>
    show win0_5.index _ (1 : Fin 2) * 256 ≤ (i 1).val ∧ (i 1).val < win0_5.index _ (1 : Fin 2) * 256 + 256
    rw [e1]; omega

/-- Result 2 after the region: `X · Wᵀ` of the regrouped activations and its weight matrix. -/
theorem final5 (c : Dev nD) : (dat0 V c).arrAt 5 cfg0.N = matT (V c main_v0) (V c main_arg2) :=
  (dat0 V c).arrAt_eq_of_cover 5 _ (fun t _ => flushed5_eq V c t) cover5

/-- An index of result 3 is in point `t`'s block iff each coordinate is in the block's range on its axis. -/
theorem mem_blk6 (t : Fin cfg0.N) (i : S16384x256.Idx) :
    i ∈ ((cfg0.win 6).blk t).view.set ↔ ∀ a : Fin 2, win0_6.index t a * S512x256.size a ≤ (i a).val ∧ (i a).val < win0_6.index t a * S512x256.size a + S512x256.size a := by
  show i ∈ ((View.whole main_v1_2).slice (win0_6.rect t)).set ↔ _
  rw [View.set_slice_whole, Rect.mem_set_unit]
  exact Iff.rfl

/-- Row `r` lies in the block of point `r / 512`: the 32 blocks cover the array. -/
theorem cover6 (i : S16384x256.Idx) : ∃ t : Fin cfg0.N, (cfg0.win 6).flush t = true ∧ i ∈ ((cfg0.win 6).blk t).view.set := by
  have hi0 : (i 0).val < 16384 := (i 0).isLt
  have hi1 : (i 1).val < 256 := (i 1).isLt
  have hN : cfg0.N = 32 := N_0
  refine ⟨⟨(i 0).val / 512, by rw [hN]; omega⟩, flush0_6 _, ?_⟩
  obtain ⟨-, -, -, -, -, -, -, -, -, -, -, -, e0, e1⟩ := idx_facts ⟨(i 0).val / 512, by rw [hN]; omega⟩
  rw [mem_blk6]
  intro a
  match a with
  | ⟨0, _⟩ =>
    show win0_6.index _ (0 : Fin 2) * 512 ≤ (i 0).val ∧ (i 0).val < win0_6.index _ (0 : Fin 2) * 512 + 512
    rw [e0]; show (i 0).val / 512 * 512 ≤ (i 0).val ∧ (i 0).val < (i 0).val / 512 * 512 + 512; omega
  | ⟨1, _⟩ =>
    show win0_6.index _ (1 : Fin 2) * 256 ≤ (i 1).val ∧ (i 1).val < win0_6.index _ (1 : Fin 2) * 256 + 256
    rw [e1]; omega

/-- Result 3 after the region: `X · Wᵀ` of the regrouped activations and its weight matrix. -/
theorem final6 (c : Dev nD) : (dat0 V c).arrAt 6 cfg0.N = matT (V c main_v0) (V c main_arg3) :=
  (dat0 V c).arrAt_eq_of_cover 6 _ (fun t _ => flushed6_eq V c t) cover6

end Arrays

end Cert.KernelIdeal.ProjValue

end
-- ==== Proof.Spec.lean ====
/-
  Causal masked-softmax attention over projected queries, keys and values, as one function of the four argument arrays,
  index by index, on the extended reals.

  For a batch b, a query position q and an output lane e:

    Q[b,s,·] = E[b,s,·] · WQᵀ,   K = E · WKᵀ,   V = E · WVᵀ           (a sum over the 256 model lanes)
    w[k]     = (∑_d Q[b,q,d] · K[b,k,d]) · (1/16)                        (the scaled score of key k)
    keep[k]  = 1 if k ≤ q and w[k] ≠ 0, else 0                           (causal mask, and exact zeros dropped)
    num[k]   = exp (w[k] − max_k' w[k']) · keep[k]
    out      = ∑_k (num[k] / (∑_k' num[k'] + ε)) · V[b,k,e]

  The maximum runs over ALL keys (masked or not) from −∞, the denominator's sum over all keys, and ε is the float32
  nearest 1e-9. Both programs compute exactly this; they differ in how they tile it and in writing the scale as a
  product with 1/16 or a quotient by 16, which agree on every extended real because 16 is a nonzero real.
-/
import Idealize.ShloMosaic.PureOps.Ideal
import Idealize.ShloMosaic.PureOps.Ideal.Laws
import Idealize.ShloMosaic.Lib.ValueIdx

noncomputable section

namespace Cert.Attn

open Idealize.ShloMosaic Idealize.ShloMosaic.ValueIdx

/-- An activation array [8, 2048, 256] and a weight matrix [256, 256] of extended reals. -/
abbrev Arr3 : Type := (⟨3, ![8, 2048, 256]⟩ : Shape).Idx → EReal
abbrev Mat : Type := (⟨2, ![256, 256]⟩ : Shape).Idx → EReal

/-- The scale 1/16 (= 1/√256), the float32 pattern of 0.0625. -/
abbrev scaleBits : BitVec 32 := 0x3D800000#32
/-- −∞, from which a row's maximum is folded. -/
abbrev negInfBits : BitVec 32 := 0xFF800000#32
/-- ε, the float32 nearest 1e-9. -/
abbrev epsBits : BitVec 32 := 0x3089705F#32

/-- A projection `x · Wᵀ`: entry (b, s, e) sums the products of row (b, s) of the activations with row e of the weights. -/
def proj (E : Arr3) (W : Mat) (b : Fin 8) (s : Fin 2048) (e : Fin 256) : EReal :=
  ∑ d : Fin 256, E (ix3 b s d) * W (ix2 e d)

/-- The scaled score of query row `qr` against key row `kr` (two rows of 256 lanes). -/
def score (qr kr : Fin 256 → EReal) : EReal :=
  (∑ d : Fin 256, qr d * kr d) * Ideal.ofBits .f32 scaleBits

/-- The mask entry of key `k` for query `q` at score `w`: kept when the key is not after the query and the score is not zero. -/
def keep (q k : Fin 2048) (w : EReal) : EReal := if k.val ≤ q.val ∧ w ≠ 0 then 1 else 0

/-- The maximum of a row of scores, folded from −∞ over all 2048 keys. -/
def rowMax (w : Fin 2048 → EReal) : EReal :=
  (Finset.univ : Finset (Fin 2048)).fold max (Ideal.ofBits .f32 negInfBits) w

/-- The masked exponential of key `k`. -/
def num (q : Fin 2048) (w : Fin 2048 → EReal) (k : Fin 2048) : EReal :=
  Ideal.exp (w k - rowMax w) * keep q k (w k)

/-- The attention weight of key `k`: its masked exponential over the row's sum plus ε. -/
def weight (q : Fin 2048) (w : Fin 2048 → EReal) (k : Fin 2048) : EReal :=
  Ideal.div (num q w k) ((∑ k' : Fin 2048, num q w k') + Ideal.ofBits .f32 epsBits)

/-- One output entry from a row of scores and a column of values. -/
def mix (q : Fin 2048) (w : Fin 2048 → EReal) (v : Fin 2048 → EReal) : EReal :=
  ∑ k : Fin 2048, weight q w k * v k

/-- The whole result: entry (b, q, e). -/
def out (E : Arr3) (WQ WK WV : Mat) : Arr3 := fun i =>
  mix (i 1) (fun k => score (fun d => proj E WQ (i 0) (i 1) d) (fun d => proj E WK (i 0) k d)) (fun k => proj E WV (i 0) k (i 2))

/-! ## The constants -/

/-- The pattern of `+0.0` denotes 0. -/
theorem ofBits_zero : Ideal.ofBits .f32 0x00000000#32 = 0 := Ideal.ofBits_zero_f32

/-- The pattern of `1.0` denotes 1. -/
theorem ofBits_one : Ideal.ofBits .f32 0x3F800000#32 = 1 := by
  simp [Ideal.ofBits, Ideal.ieee, -EReal.coe_mul]; norm_num

/-- The pattern of `16.0` denotes the real 16. -/
theorem ofBits_sixteen : Ideal.ofBits .f32 0x41800000#32 = ((16 : ℝ) : EReal) := by
  simp [Ideal.ofBits, Ideal.ieee, -EReal.coe_mul]; norm_num

/-- The pattern of `0.0625` denotes the real 1/16. -/
theorem ofBits_sixteenth : Ideal.ofBits .f32 scaleBits = ((1 / 16 : ℝ) : EReal) := by
  show Ideal.ofBits .f32 0x3D800000#32 = _
  simp [Ideal.ofBits, Ideal.ieee, -EReal.coe_mul]; norm_num

/-- A quotient by 16 is the product with 1/16, on every extended real. -/
theorem div_sixteen (x : EReal) : Ideal.div x (Ideal.ofBits .f32 0x41800000#32) = x * Ideal.ofBits .f32 scaleBits := by
  rw [ofBits_sixteen, ofBits_sixteenth]
  exact Ideal.div_coe (by norm_num) x

end Cert.Attn

end
-- ==== Proof.LibLayout.lean ====
/-
  Layout operations of small shapes read at an index written by its coordinates: a vector viewed as a column, a column
  repeated along each row, and the row-major regrouping of an array's two leading axes into one axis and back.
  Each is the library's general reading of the operation (equal row-major positions for a cast, trailing coordinates
  for a broadcast) with the two positions worked out for the shapes at hand.
-/
import Idealize.ShloMosaic.Lib.Pipeline.Value
import Idealize.ShloMosaic.Lib.ValueIdx

namespace Cert.LibLayout

open Idealize.ShloMosaic Idealize.ShloMosaic.ValueIdx

variable {α : Type}

/-- An `[a]` array cast to the column `[a, 1]` reads, at `(i, u)`, the operand at `i`: position `i · 1 + 0` is `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[n0, n1, n2]` array with its two leading axes regrouped into one of extent `N` reads, at `(r, c)` with
    `r = s · n1 + b`, the operand at `(s, b, c)`: both sit at row-major position `(s · n1 + b) · n2 + c`. -/
theorem shapeCast_abc_dc_apply {n0 n1 n2 N : ℕ} (x : (⟨3, ![n0, n1, n2]⟩ : Shape).Idx → α)
    (h : (⟨3, ![n0, n1, n2]⟩ : Shape).ShapeCasts ⟨2, ![N, n2]⟩) (r : Fin N) (c : Fin n2) (s : Fin n0) (b : Fin n1)
    (hr : r.val = s.val * n1 + b.val) :
    shapeCast ⟨2, ![N, n2]⟩ x h (ix2 r c) = x (ix3 s b c) :=
  shapeCast_apply x h _ _ (by
    rw [Shape.rowMajor_val_three, Shape.rowMajor_val_two]
    show (s.val * n1 + b.val) * n2 + c.val = r.val * n2 + c.val
    rw [hr])

/-- The way back: an `[N, n2]` array with its leading axis split into `[n0, n1]` reads, at `(s, b, c)`, the operand at
    `(r, c)` for `r = s · n1 + b`. -/
theorem shapeCast_dc_abc_apply {n0 n1 n2 N : ℕ} (x : (⟨2, ![N, n2]⟩ : Shape).Idx → α)
    (h : (⟨2, ![N, n2]⟩ : Shape).ShapeCasts ⟨3, ![n0, n1, n2]⟩) (s : Fin n0) (b : Fin n1) (c : Fin n2) (r : Fin N)
    (hr : r.val = s.val * n1 + b.val) :
    shapeCast ⟨3, ![n0, n1, n2]⟩ x h (ix3 s b c) = x (ix2 r c) :=
  shapeCast_apply x h _ _ (by
    rw [Shape.rowMajor_val_three, Shape.rowMajor_val_two]
    show r.val * n2 + c.val = (s.val * n1 + b.val) * n2 + c.val
    rw [hr])

end Cert.LibLayout
-- ==== Proof.TileValue.lean ====
/-
  One tile of causal masked-softmax attention, read at an entry.

  For a block of 128 query rows, the 2048 key rows and the 2048 value rows of one batch, the body computes

    w[r,k]    = (∑_d Q[r,d] · K[k,d]) · (1/16)
    keep[r,k] = 1 if k ≤ g·128 + r and w[r,k] ≠ 0, else 0            (g the block's position along the queries)
    num[r,k]  = exp (w[r,k] − max_k' w[r,k']) · keep[r,k]
    out[r,e]  = ∑_k (num[r,k] / (∑_k' num[r,k'] + ε)) · V[k,e]

  on the extended reals, where a narrowing to 16 bits is the identity. This file reads each stage at an index — the two
  contractions as sums over their one contracting axis, the blocks' unit axis dropped, the two reductions over the keys
  as a fold of max from −∞ and a sum, the reduced vector viewed as a column and repeated along the keys, the integer
  comparison of positions as the comparison of naturals (all positions are below 2048, far from the sign bit) — and
  concludes that entry (r, e) is the specification's `mix` for the query position q = g·128 + r.
-/
import proofs.«158596_j65249143161555_1_alg».proof.Proof.Gen.KernelIdeal.Skeleton
import proofs.«158596_j65249143161555_1_alg».proof.Proof.Spec
import proofs.«158596_j65249143161555_1_alg».proof.Proof.LibLayout
import Idealize.ShloMosaic.Lib.ValueIdx
import Idealize.ShloMosaic.Lib.Pipeline.Value
import Idealize.ShloMosaic.PureOps.Ideal.Laws

noncomputable section

namespace Cert.TileValue

open Idealize.ShloMosaic Idealize.ShloMosaic.ValueIdx Cert.KernelIdeal Cert.KernelIdeal.Gen

/-! ## The two contractions read at an index -/

/-- Scores: the left operand's index at output (r, k) keeps the row r … -/
theorem qk_lhs_0 (j : S128x2048.Idx) (c : dot_S128x256_S2048x256_S128x2048_1_1_0_0_n_n.contr.Idx) :
    (dot_S128x256_S2048x256_S128x2048_1_1_0_0_n_n.lhsIdx j c 0).val = (j 0).val := by
  unfold DotDims.lhsIdx
  rw [dif_neg (show ¬(0 : Fin S128x256.rank) ∈ dot_S128x256_S2048x256_S128x2048_1_1_0_0_n_n.lhsBatch by decide),
    dif_pos (show (0 : Fin S128x256.rank) ∈ dot_S128x256_S2048x256_S128x2048_1_1_0_0_n_n.lhsNonContracting by decide)]
  rfl
/-- … and runs over the lanes on its second axis. -/
theorem qk_lhs_1 (j : S128x2048.Idx) (c : dot_S128x256_S2048x256_S128x2048_1_1_0_0_n_n.contr.Idx) :
    (dot_S128x256_S2048x256_S128x2048_1_1_0_0_n_n.lhsIdx j c 1).val = (c ⟨0, by decide⟩).val :=
  dot_S128x256_S2048x256_S128x2048_1_1_0_0_n_n.lhsIdx_val_of_single rfl j c
/-- The right operand's index takes the key k as its row … -/
theorem qk_rhs_0 (j : S128x2048.Idx) (c : dot_S128x256_S2048x256_S128x2048_1_1_0_0_n_n.contr.Idx) :
    (dot_S128x256_S2048x256_S128x2048_1_1_0_0_n_n.rhsIdx j c 0).val = (j 1).val := by
  unfold DotDims.rhsIdx
  rw [dif_neg (show ¬(0 : Fin S2048x256.rank) ∈ dot_S128x256_S2048x256_S128x2048_1_1_0_0_n_n.rhsBatch by decide),
    dif_pos (show (0 : Fin S2048x256.rank) ∈ dot_S128x256_S2048x256_S128x2048_1_1_0_0_n_n.rhsNonContracting by decide)]
  rfl
/-- … and the same lane on its second axis. -/
theorem qk_rhs_1 (j : S128x2048.Idx) (c : dot_S128x256_S2048x256_S128x2048_1_1_0_0_n_n.contr.Idx) :
    (dot_S128x256_S2048x256_S128x2048_1_1_0_0_n_n.rhsIdx j c 1).val = (c ⟨0, by decide⟩).val :=
  dot_S128x256_S2048x256_S128x2048_1_1_0_0_n_n.rhsIdx_val_of_single rfl j c

/-- The product q · kᵀ into a zero accumulator, at (r, k): the sum over the 256 lanes of row r of the left operand
    times row k of the right one. -/
theorem matmul_qk_apply (a : FVec Ideal S128x256 .bf16) (b : FVec Ideal S2048x256 .bf16) (r : Fin 128) (k : Fin 2048) :
    matmul dot_S128x256_S2048x256_S128x2048_1_1_0_0_n_n none a b (constant S128x2048 .f32 0x00000000#32) (ix2 r k)
      = ∑ d : Fin 256, a (ix2 r d) * b (ix2 k d) := by
  simp only [matmul]
  rw [Ideal.matmul_constant_zero_apply,
    ← Equiv.sum_comp (contrEquiv1 dot_S128x256_S2048x256_S128x2048_1_1_0_0_n_n 256 rfl rfl).symm]
  refine Finset.sum_congr rfl fun d _ => ?_
  have hd := contrEquiv1_symm_val dot_S128x256_S2048x256_S128x2048_1_1_0_0_n_n 256 rfl rfl d
  have el : dot_S128x256_S2048x256_S128x2048_1_1_0_0_n_n.lhsIdx (ix2 r k)
      ((contrEquiv1 dot_S128x256_S2048x256_S128x2048_1_1_0_0_n_n 256 rfl rfl).symm d) = ix2 r d :=
    funext fun x => Fin.ext (by
      match x with
      | ⟨0, _⟩ => exact qk_lhs_0 _ _
      | ⟨1, _⟩ => exact (qk_lhs_1 _ _).trans hd)
  have er : dot_S128x256_S2048x256_S128x2048_1_1_0_0_n_n.rhsIdx (ix2 r k)
      ((contrEquiv1 dot_S128x256_S2048x256_S128x2048_1_1_0_0_n_n 256 rfl rfl).symm d) = ix2 k d :=
    funext fun x => Fin.ext (by
      match x with
      | ⟨0, _⟩ => exact qk_rhs_0 _ _
      | ⟨1, _⟩ => exact (qk_rhs_1 _ _).trans hd)
  rw [el, er]

/-- Mixing: the left operand's index at output (r, e) keeps the row r … -/
theorem pv_lhs_0 (j : S128x256.Idx) (c : dot_S128x2048_S2048x256_S128x256_1_0_0_1_n_n.contr.Idx) :
    (dot_S128x2048_S2048x256_S128x256_1_0_0_1_n_n.lhsIdx j c 0).val = (j 0).val := by
  unfold DotDims.lhsIdx
  rw [dif_neg (show ¬(0 : Fin S128x2048.rank) ∈ dot_S128x2048_S2048x256_S128x256_1_0_0_1_n_n.lhsBatch by decide),
    dif_pos (show (0 : Fin S128x2048.rank) ∈ dot_S128x2048_S2048x256_S128x256_1_0_0_1_n_n.lhsNonContracting by decide)]
  rfl
/-- … and runs over the keys on its second axis. -/
theorem pv_lhs_1 (j : S128x256.Idx) (c : dot_S128x2048_S2048x256_S128x256_1_0_0_1_n_n.contr.Idx) :
    (dot_S128x2048_S2048x256_S128x256_1_0_0_1_n_n.lhsIdx j c 1).val = (c ⟨0, by decide⟩).val :=
  dot_S128x2048_S2048x256_S128x256_1_0_0_1_n_n.lhsIdx_val_of_single rfl j c
/-- The right operand's index runs over the keys on its first axis … -/
theorem pv_rhs_0 (j : S128x256.Idx) (c : dot_S128x2048_S2048x256_S128x256_1_0_0_1_n_n.contr.Idx) :
    (dot_S128x2048_S2048x256_S128x256_1_0_0_1_n_n.rhsIdx j c 0).val = (c ⟨0, by decide⟩).val :=
  dot_S128x2048_S2048x256_S128x256_1_0_0_1_n_n.rhsIdx_val_of_single rfl j c
/-- … and keeps the output lane e on its second. -/
theorem pv_rhs_1 (j : S128x256.Idx) (c : dot_S128x2048_S2048x256_S128x256_1_0_0_1_n_n.contr.Idx) :
    (dot_S128x2048_S2048x256_S128x256_1_0_0_1_n_n.rhsIdx j c 1).val = (j 1).val := by
  unfold DotDims.rhsIdx
  rw [dif_neg (show ¬(1 : Fin S2048x256.rank) ∈ dot_S128x2048_S2048x256_S128x256_1_0_0_1_n_n.rhsBatch by decide),
    dif_pos (show (1 : Fin S2048x256.rank) ∈ dot_S128x2048_S2048x256_S128x256_1_0_0_1_n_n.rhsNonContracting by decide)]
  rfl

/-- The product p · v into a zero accumulator, at (r, e): the sum over the 2048 keys of row r of the weights times
    column e of the values. -/
theorem matmul_pv_apply (a : FVec Ideal S128x2048 .bf16) (b : FVec Ideal S2048x256 .bf16) (r : Fin 128) (e : Fin 256) :
    matmul dot_S128x2048_S2048x256_S128x256_1_0_0_1_n_n none a b (constant S128x256 .f32 0x00000000#32) (ix2 r e)
      = ∑ k : Fin 2048, a (ix2 r k) * b (ix2 k e) := by
  simp only [matmul]
  rw [Ideal.matmul_constant_zero_apply,
    ← Equiv.sum_comp (contrEquiv1 dot_S128x2048_S2048x256_S128x256_1_0_0_1_n_n 2048 rfl rfl).symm]
  refine Finset.sum_congr rfl fun k _ => ?_
  have hk := contrEquiv1_symm_val dot_S128x2048_S2048x256_S128x256_1_0_0_1_n_n 2048 rfl rfl k
  have el : dot_S128x2048_S2048x256_S128x256_1_0_0_1_n_n.lhsIdx (ix2 r e)
      ((contrEquiv1 dot_S128x2048_S2048x256_S128x256_1_0_0_1_n_n 2048 rfl rfl).symm k) = ix2 r k :=
    funext fun x => Fin.ext (by
      match x with
      | ⟨0, _⟩ => exact pv_lhs_0 _ _
      | ⟨1, _⟩ => exact (pv_lhs_1 _ _).trans hk)
  have er : dot_S128x2048_S2048x256_S128x256_1_0_0_1_n_n.rhsIdx (ix2 r e)
      ((contrEquiv1 dot_S128x2048_S2048x256_S128x256_1_0_0_1_n_n 2048 rfl rfl).symm k) = ix2 k e :=
    funext fun x => Fin.ext (by
      match x with
      | ⟨0, _⟩ => exact (pv_rhs_0 _ _).trans hk
      | ⟨1, _⟩ => exact pv_rhs_1 _ _)
  rw [el, er]

/-! ## Layout: a block's unit axis dropped, a vector as a column repeated along the keys -/

/-- A `[1, h, w]` block viewed `[h, w]` reads, at (r, d), the block at (0, r, d). -/
theorem dropUnit_apply {α : Type} {h w : ℕ} (x : (⟨3, ![1, h, w]⟩ : Shape).Idx → α)
    (hc : (⟨3, ![1, h, w]⟩ : Shape).ShapeCasts ⟨2, ![h, w]⟩) (r : Fin h) (d : Fin w) :
    shapeCast ⟨2, ![h, w]⟩ x hc (ix2 r d) = x (ix3 (0 : Fin 1) r d) :=
  Cert.LibLayout.shapeCast_abc_dc_apply x hc r d (0 : Fin 1) r (by simp)

/-- A `[128]` vector cast to a column and repeated along the 2048 keys reads, at (r, k), the vector at r. -/
theorem column_apply (c : FVec Ideal S128 .f32) (r : Fin 128) (k : Fin 2048) :
    broadcastTo S128x2048 (shapeCast S128x1 c shapeCasts_S128_S128x1) broadcasts_S128x1_S128x2048 (ix2 r k) = c (ix1 r) :=
  (Cert.LibLayout.broadcastTo_a1_ab_apply _ _ r k).trans (Cert.LibLayout.shapeCast_a_a1_apply c _ r 0)

/-! ## The two reductions over the keys -/

/-- The reduced index r with the key k inserted is (r, k). -/
theorem lift_eq (r : Fin 128) (k : Fin 2048) :
    reduces_S128x2048_S128.lift (a := (1 : Fin 2)) (ix1 r) k = ix2 r k :=
  funext fun x => Fin.ext (by
    match x with
    | ⟨0, _⟩ => rfl
    | ⟨1, _⟩ => rfl)

/-- The maximum over the keys from −∞, at row r: the row's maximum. -/
theorem rowMax_apply (v : FVec Ideal S128x2048 .f32) (r : Fin 128) :
    multiReduction .maximumf [1] S128 v 0xFF800000#32 reduces_S128x2048_S128 (.inl rfl) rfl (ix1 r)
      = Cert.Attn.rowMax fun k => v (ix2 r k) := by
  refine (Ideal.multiReduction_maximumf_single v _ reduces_S128x2048_S128 (.inl rfl) rfl (ix1 r)).trans ?_
  unfold Cert.Attn.rowMax
  refine congrArg (Finset.fold max _ · _) (funext fun k => ?_)
  exact congrArg v (lift_eq r k)

/-- The sum over the keys, at row r. -/
theorem rowSum_apply (v : FVec Ideal S128x2048 .f32) (r : Fin 128) :
    multiReduction .add [1] S128 v 0x00000000#32 reduces_S128x2048_S128 (.inl rfl) rfl (ix1 r)
      = ∑ k : Fin 2048, v (ix2 r k) := by
  refine (Ideal.multiReduction_add_single v _ reduces_S128x2048_S128 (.inl rfl) rfl (ix1 r)).trans ?_
  exact Finset.sum_congr rfl fun k _ => congrArg v (lift_eq r k)

/-! ## The mask entry -/

/-- The signed comparison "key position ≤ query position" on 32-bit words, the query position being the tile's first
    row g · 128 plus the row r within the tile: every position is below 2048, so the words are the naturals and the
    signed order is theirs. -/
theorem causal_bit (g : ℕ) (r : Fin 128) (k q : Fin 2048) (hq : q.val = g * 128 + r.val) :
    IntOp.cmpi .sle (BitVec.ofNat 32 k.val)
        (IntOp.addi (Scalar.muli (BitVec.ofNat 32 g) 128#32) (BitVec.ofNat 32 r.val))
      = BitVec.ofBool (decide (k.val ≤ q.val)) := by
  have hsum : IntOp.addi (Scalar.muli (BitVec.ofNat 32 g) 128#32) (BitVec.ofNat 32 r.val) = BitVec.ofNat 32 q.val := by
    show BitVec.ofNat 32 g * BitVec.ofNat 32 128 + BitVec.ofNat 32 r.val = _
    rw [hq, BitVec.ofNat_add, BitVec.ofNat_mul]
  have small : ∀ n : Fin 2048, (BitVec.ofNat 32 n.val).toInt = (n.val : Int) := fun n => by
    have hn := n.isLt
    have ht : (BitVec.ofNat 32 n.val).toNat = n.val := by rw [BitVec.toNat_ofNat]; omega
    rw [BitVec.toInt_eq_toNat_of_lt (by rw [ht]; omega), ht]
  rw [hsum]
  show BitVec.ofBool ((BitVec.ofNat 32 k.val).sle (BitVec.ofNat 32 q.val)) = _
  rw [BitVec.sle_eq_decide, small k, small q]
  exact congrArg BitVec.ofBool (decide_eq_decide.mpr Int.ofNat_le)

/-- A one-bit condition AND "the score is not zero", widened to a word and read as a signed integer, is 1 when both
    hold and 0 otherwise. -/
theorem mask_word (p : Prop) [Decidable p] (w : EReal) :
    ((((IntOp.andi (BitVec.ofBool (decide p)) (Ideal.cmp .one w 0)).setWidth 32).toInt : ℝ) : EReal)
      = if p ∧ w ≠ 0 then 1 else 0 := by
  unfold Ideal.cmp IntOp.andi
  by_cases hp : p <;> by_cases hw : w = 0 <;> simp [hp, hw]

/-- The mask of the tile at grid point i, from the score tile v: the causal comparison of the key's position with the
    row's global position, AND "the score is not zero", as a float. -/
def maskTile (i : grid1.Coords) (v : FVec Ideal S128x2048 .f32) : FVec Ideal S128x2048 .f32 :=
  sitofp .f32 (extui 32 (andi
    (cmpi .sle (iota .tc S128x2048 32 [1] iota_S128x2048_d1_w32)
      (addi (broadcast S128x2048 (Scalar.muli (BitVec.ofNat 32 (i 1).val) 128#32)) (iota .tc S128x2048 32 [0] iota_S128x2048_d0_w32)))
    (cmpf .one v (broadcast S128x2048 (Scalar.ofBits .f32 0x00000000#32)))) natLt_1_32)

/-- The mask at (r, k) is the specification's mask entry of key k for the query q = (i 1) · 128 + r. -/
theorem maskTile_apply (i : grid1.Coords) (v : FVec Ideal S128x2048 .f32) (r : Fin 128) (k q : Fin 2048)
    (hq : q.val = (i 1).val * 128 + r.val) :
    maskTile i v (ix2 r k) = Cert.Attn.keep q k (v (ix2 r k)) := by
  have h1 : iota .tc S128x2048 32 [1] iota_S128x2048_d1_w32 (ix2 r k) = BitVec.ofNat 32 k.val :=
    iota_single_apply _ _ _ _ _ _
  have h0 : iota .tc S128x2048 32 [0] iota_S128x2048_d0_w32 (ix2 r k) = BitVec.ofNat 32 r.val :=
    iota_single_apply _ _ _ _ _ _
  have hz : Scalar.ofBits (F := Ideal) .f32 0x00000000#32 = (0 : EReal) := Cert.Attn.ofBits_zero
  show ((((IntOp.andi
      (IntOp.cmpi .sle (iota .tc S128x2048 32 [1] iota_S128x2048_d1_w32 (ix2 r k))
        (IntOp.addi (Scalar.muli (BitVec.ofNat 32 (i 1).val) 128#32) (iota .tc S128x2048 32 [0] iota_S128x2048_d0_w32 (ix2 r k))))
      (Ideal.cmp .one (v (ix2 r k)) (Scalar.ofBits (F := Ideal) .f32 0x00000000#32))).setWidth 32).toInt : ℝ) : EReal) = _
  rw [h1, h0, causal_bit (i 1).val r k q hq, hz]
  exact mask_word _ _

/-! ## The tile, stage by stage -/

/-- The score tile: q · kᵀ of the two blocks (unit axis dropped, the narrowing to 16 bits the identity on the extended
    reals) times the scale 1/16. -/
def scoreTile (x0 : Vec Ideal S1x128x256 .f32) (x1 : Vec Ideal S1x2048x256 .f32) : FVec Ideal S128x2048 .f32 :=
  mulf
    (matmul dot_S128x256_S2048x256_S128x2048_1_1_0_0_n_n none
      (truncf .bf16 (shapeCast S128x256 x0 shapeCasts_S1x128x256_S128x256) bitsLt_bf16_f32)
      (truncf .bf16 (shapeCast S2048x256 x1 shapeCasts_S1x2048x256_S2048x256) bitsLt_bf16_f32)
      (constant S128x2048 .f32 0x00000000#32))
    (broadcast S128x2048 (Scalar.ofBits .f32 0x3D800000#32))

/-- At (r, k) it is the specification's scaled score of row r of the query block against row k of the key block. -/
theorem scoreTile_apply (x0 : Vec Ideal S1x128x256 .f32) (x1 : Vec Ideal S1x2048x256 .f32) (r : Fin 128) (k : Fin 2048) :
    scoreTile x0 x1 (ix2 r k)
      = Cert.Attn.score (fun d => x0 (ix3 (0 : Fin 1) r d)) (fun d => x1 (ix3 (0 : Fin 1) k d)) := by
  show matmul dot_S128x256_S2048x256_S128x2048_1_1_0_0_n_n none
      (truncf .bf16 (shapeCast S128x256 x0 shapeCasts_S1x128x256_S128x256) bitsLt_bf16_f32)
      (truncf .bf16 (shapeCast S2048x256 x1 shapeCasts_S1x2048x256_S2048x256) bitsLt_bf16_f32)
      (constant S128x2048 .f32 0x00000000#32) (ix2 r k) * Ideal.ofBits .f32 Cert.Attn.scaleBits = _
  rw [matmul_qk_apply]
  unfold Cert.Attn.score
  refine congrArg (· * _) (Finset.sum_congr rfl fun d _ => ?_)
  show shapeCast S128x256 x0 shapeCasts_S1x128x256_S128x256 (ix2 r d)
      * shapeCast S2048x256 x1 shapeCasts_S1x2048x256_S2048x256 (ix2 k d) = _
  rw [dropUnit_apply, dropUnit_apply]

/-- The masked exponentials: exp (score − row maximum) times the mask. -/
def numTile (v m : FVec Ideal S128x2048 .f32) : FVec Ideal S128x2048 .f32 :=
  mulf (exp (subf v (broadcastTo S128x2048
    (shapeCast S128x1 (multiReduction .maximumf [1] S128 v 0xFF800000#32 reduces_S128x2048_S128 (.inl rfl) rfl)
      shapeCasts_S128_S128x1) broadcasts_S128x1_S128x2048))) m

theorem numTile_apply (v m : FVec Ideal S128x2048 .f32) (r : Fin 128) (k : Fin 2048) :
    numTile v m (ix2 r k) = Ideal.exp (v (ix2 r k) - Cert.Attn.rowMax fun k' => v (ix2 r k')) * m (ix2 r k) := by
  show Ideal.exp (v (ix2 r k) - broadcastTo S128x2048
    (shapeCast S128x1 (multiReduction .maximumf [1] S128 v 0xFF800000#32 reduces_S128x2048_S128 (.inl rfl) rfl)
      shapeCasts_S128_S128x1) broadcasts_S128x1_S128x2048 (ix2 r k)) * m (ix2 r k) = _
  rw [column_apply, rowMax_apply]

/-- The weights: each masked exponential over its row's sum plus ε. -/
def weightTile (n : FVec Ideal S128x2048 .f32) : FVec Ideal S128x2048 .f32 :=
  divf n (broadcastTo S128x2048
    (addf (shapeCast S128x1 (multiReduction .add [1] S128 n 0x00000000#32 reduces_S128x2048_S128 (.inl rfl) rfl)
        shapeCasts_S128_S128x1)
      (broadcast S128x1 (Scalar.ofBits .f32 0x3089705F#32))) broadcasts_S128x1_S128x2048)

theorem weightTile_apply (n : FVec Ideal S128x2048 .f32) (r : Fin 128) (k : Fin 2048) :
    weightTile n (ix2 r k)
      = Ideal.div (n (ix2 r k)) ((∑ k' : Fin 2048, n (ix2 r k')) + Ideal.ofBits .f32 Cert.Attn.epsBits) := by
  show Ideal.div (n (ix2 r k)) (broadcastTo S128x2048
    (addf (shapeCast S128x1 (multiReduction .add [1] S128 n 0x00000000#32 reduces_S128x2048_S128 (.inl rfl) rfl)
        shapeCasts_S128_S128x1)
      (broadcast S128x1 (Scalar.ofBits .f32 0x3089705F#32))) broadcasts_S128x1_S128x2048 (ix2 r k)) = _
  rw [Cert.LibLayout.broadcastTo_a1_ab_apply]
  show Ideal.div (n (ix2 r k))
    (shapeCast S128x1 (multiReduction .add [1] S128 n 0x00000000#32 reduces_S128x2048_S128 (.inl rfl) rfl)
        shapeCasts_S128_S128x1 (ix2 r (0 : Fin 1)) + Ideal.ofBits .f32 Cert.Attn.epsBits) = _
  rw [Cert.LibLayout.shapeCast_a_a1_apply, rowSum_apply]

/-- With the mask read as the specification's, the weights of row r are the specification's attention weights of the
    row's scores for the query q. -/
theorem weight_apply (v m : FVec Ideal S128x2048 .f32) (r : Fin 128) (q : Fin 2048)
    (hm : ∀ k, m (ix2 r k) = Cert.Attn.keep q k (v (ix2 r k))) (k : Fin 2048) :
    weightTile (numTile v m) (ix2 r k) = Cert.Attn.weight q (fun k' => v (ix2 r k')) k := by
  have hn : ∀ k', numTile v m (ix2 r k') = Cert.Attn.num q (fun k'' => v (ix2 r k'')) k' := fun k' => by
    rw [numTile_apply, hm]; rfl
  refine (weightTile_apply _ r k).trans ?_
  unfold Cert.Attn.weight
  rw [hn k, Finset.sum_congr rfl fun k' _ => hn k']

/-- The kernel body's arithmetic is these stages in turn, mixed with the value block. -/
theorem k1_pay2_eq (i : grid1.Coords) (x0 : Vec Ideal S1x128x256 .f32) (x1 x2 : Vec Ideal S1x2048x256 .f32) :
    k1_pay2 (F := Ideal) i x0 x1 x2
      = matmul dot_S128x2048_S2048x256_S128x256_1_0_0_1_n_n none
          (truncf .bf16 (weightTile (numTile (scoreTile x0 x1) (maskTile i (scoreTile x0 x1)))) bitsLt_bf16_f32)
          (truncf .bf16 (shapeCast S2048x256 x2 shapeCasts_S1x2048x256_S2048x256) bitsLt_bf16_f32)
          (constant S128x256 .f32 0x00000000#32) := rfl

/-- THE ATTENTION TILE: at grid point i, entry (r, e) of the body's result is the specification's mix, for the query
    position q = (i 1) · 128 + r, of the scaled scores of row r of the query block against the key block's rows with
    column e of the value block. -/
theorem attn_tile (i : grid1.Coords) (x0 : Vec Ideal S1x128x256 .f32) (x1 x2 : Vec Ideal S1x2048x256 .f32)
    (r : Fin 128) (e : Fin 256) (q : Fin 2048) (hq : q.val = (i 1).val * 128 + r.val) :
    k1_pay2 (F := Ideal) i x0 x1 x2 (ix2 r e)
      = Cert.Attn.mix q
          (fun k => Cert.Attn.score (fun d => x0 (ix3 (0 : Fin 1) r d)) (fun d => x1 (ix3 (0 : Fin 1) k d)))
          (fun k => x2 (ix3 (0 : Fin 1) k e)) := by
  rw [k1_pay2_eq]
  refine (matmul_pv_apply _ _ r e).trans ?_
  unfold Cert.Attn.mix
  have hW : (fun k' => scoreTile x0 x1 (ix2 r k'))
      = fun k => Cert.Attn.score (fun d => x0 (ix3 (0 : Fin 1) r d)) (fun d => x1 (ix3 (0 : Fin 1) k d)) :=
    funext fun k => scoreTile_apply x0 x1 r k
  refine Finset.sum_congr rfl fun k _ => ?_
  show weightTile (numTile (scoreTile x0 x1) (maskTile i (scoreTile x0 x1))) (ix2 r k)
      * shapeCast S2048x256 x2 shapeCasts_S1x2048x256_S2048x256 (ix2 k e) = _
  rw [dropUnit_apply, weight_apply _ _ r q (fun k' => maskTile_apply i _ r k' q hq) k, hW]

end Cert.TileValue

end
-- ==== Proof.AttnValue.lean ====
/-
  Region 1, attention: the result array [8, 2048, 256] ends holding, at (b, q, e), the masked-softmax mix of the value
  rows of batch b by the scores of query row (b, q) against every key row of batch b — as a function of the three arrays
  the region is entered with. Grid point t handles batch t / 16 and the 128 query rows from 128 (t % 16); it reads the
  whole key and value arrays of its batch.
-/
import proofs.«158596_j65249143161555_1_alg».proof.Proof.FrameKernelIdeal
import proofs.«158596_j65249143161555_1_alg».proof.Proof.Spec
import proofs.«158596_j65249143161555_1_alg».proof.Proof.TileValue
import Idealize.ShloMosaic.Lib.Pipeline.Value
import Idealize.ShloMosaic.Lib.ValueIdx
import Idealize.ShloMosaic.PureOps.Ideal
import Idealize.ShloMosaic.PureOps.Ideal.Laws

noncomputable section

namespace Cert.KernelIdeal.AttnValue

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat)

/-- Attention over given query, key and value arrays [8, 2048, 256]: entry (b, q, e). -/
def attnOf (Qa Ka Va : Cert.Attn.Arr3) : Cert.Attn.Arr3 := fun i =>
  Cert.Attn.mix (i 1) (fun k => Cert.Attn.score (fun d => Qa (ix3 (i 0) (i 1) d)) (fun d => Ka (ix3 (i 0) k d)))
    (fun k => Va (ix3 (i 0) k (i 2)))

section Arrays

variable (V : (c : Dev nD) → (b : Ref sig .tc) → Buf (Elt Ideal) ((c : Thread nD τ).loc b))

theorem hz : (![0, 0, 0] : Fin 3 → Nat) = fun _ => 0 := funext fun a => by fin_cases a <;> rfl

/-- The printed index maps over the 128 grid points (batch `t / 16`, query block `t % 16`). -/
theorem idx_facts : ∀ t : Fin cfg1.N,
    win1_0.index t (0 : Fin 3) = t.val / 16 ∧ win1_0.index t (1 : Fin 3) = t.val % 16 ∧ win1_0.index t (2 : Fin 3) = 0
    ∧ win1_1.index t (0 : Fin 3) = t.val / 16 ∧ win1_1.index t (1 : Fin 3) = 0 ∧ win1_1.index t (2 : Fin 3) = 0
    ∧ win1_2.index t (0 : Fin 3) = t.val / 16 ∧ win1_2.index t (1 : Fin 3) = 0 ∧ win1_2.index t (2 : Fin 3) = 0
    ∧ win1_3.index t (0 : Fin 3) = t.val / 16 ∧ win1_3.index t (1 : Fin 3) = t.val % 16 ∧ win1_3.index t (2 : Fin 3) = 0
    ∧ (grid1.coords t (1 : Fin 2)).val = t.val % 16 :=
  (by decide +kernel : ∀ t : Fin grid1.N, _)

/-- Where an element of the query block of point `t` sits: batch `t / 16`, row `128 (t % 16) + r`, the same lane. -/
theorem emb0 (t : Fin cfg1.N) (u : Fin 1) (r : Fin 128) (d : Fin 256) (b : Fin 8) (q : Fin 2048)
    (hb : b.val = t.val / 16) (hq : q.val = t.val % 16 * 128 + r.val) :
    ((cfg1.win 0).blk t).view.emb (ix3 u r d) = (ix3 b q d : S8x2048x256.Idx) := by
  obtain ⟨e0, e1, e2, -⟩ := idx_facts t
  have hu : u.val = 0 := by omega
  funext a; apply Fin.ext
  match a with
  | ⟨0, _⟩ => show win1_0.index t (0 : Fin 3) * 1 + 1 * u.val = b.val; omega
  | ⟨1, _⟩ => show win1_0.index t (1 : Fin 3) * 128 + 1 * r.val = q.val; omega
  | ⟨2, _⟩ => show win1_0.index t (2 : Fin 3) * 256 + 1 * d.val = d.val; omega

/-- The key and value blocks of point `t` are batch `t / 16` whole. -/
theorem emb1 (t : Fin cfg1.N) (u : Fin 1) (k : Fin 2048) (d : Fin 256) (b : Fin 8) (hb : b.val = t.val / 16) :
    ((cfg1.win 1).blk t).view.emb (ix3 u k d) = (ix3 b k d : S8x2048x256.Idx) := by
  obtain ⟨-, -, -, e0, e1, e2, -⟩ := idx_facts t
  have hu : u.val = 0 := by omega
  funext a; apply Fin.ext
  match a with
  | ⟨0, _⟩ => show win1_1.index t (0 : Fin 3) * 1 + 1 * u.val = b.val; omega
  | ⟨1, _⟩ => show win1_1.index t (1 : Fin 3) * 2048 + 1 * k.val = k.val; omega
  | ⟨2, _⟩ => show win1_1.index t (2 : Fin 3) * 256 + 1 * d.val = d.val; omega
theorem emb2 (t : Fin cfg1.N) (u : Fin 1) (k : Fin 2048) (d : Fin 256) (b : Fin 8) (hb : b.val = t.val / 16) :
    ((cfg1.win 2).blk t).view.emb (ix3 u k d) = (ix3 b k d : S8x2048x256.Idx) := by
  obtain ⟨-, -, -, -, -, -, e0, e1, e2, -⟩ := idx_facts t
  have hu : u.val = 0 := by omega
  funext a; apply Fin.ext
  match a with
  | ⟨0, _⟩ => show win1_2.index t (0 : Fin 3) * 1 + 1 * u.val = b.val; omega
  | ⟨1, _⟩ => show win1_2.index t (1 : Fin 3) * 2048 + 1 * k.val = k.val; omega
  | ⟨2, _⟩ => show win1_2.index t (2 : Fin 3) * 256 + 1 * d.val = d.val; omega

/-- Where an element of the result block of point `t` sits: as the query block's. -/
theorem emb3 (t : Fin cfg1.N) (u : Fin 1) (r : Fin 128) (e : Fin 256) (b : Fin 8) (q : Fin 2048)
    (hb : b.val = t.val / 16) (hq : q.val = t.val % 16 * 128 + r.val) :
    ((cfg1.win 3).blk t).view.emb (ix3 u r e) = (ix3 b q e : S8x2048x256.Idx) := by
  obtain ⟨-, -, -, -, -, -, -, -, -, e0, e1, e2, -⟩ := idx_facts t
  have hu : u.val = 0 := by omega
  funext a; apply Fin.ext
  match a with
  | ⟨0, _⟩ => show win1_3.index t (0 : Fin 3) * 1 + 1 * u.val = b.val; omega
  | ⟨1, _⟩ => show win1_3.index t (1 : Fin 3) * 128 + 1 * r.val = q.val; omega
  | ⟨2, _⟩ => show win1_3.index t (2 : Fin 3) * 256 + 1 * e.val = e.val; omega

/-- The blocks read through to the arrays. -/
theorem iblk1_0_apply (c : Dev nD) (t : Fin cfg1.N) (u : Fin 1) (r : Fin 128) (b : Fin 8) (q : Fin 2048)
    (hb : b.val = t.val / 16) (hq : q.val = t.val % 16 * 128 + r.val) (d : Fin 256) :
    iblk1 V c 0 t (ix3 u r d) = (V c main_v2 : S8x2048x256.Idx → EReal) (ix3 b q d) :=
  congrArg (V c main_v2 : S8x2048x256.Idx → EReal) (emb0 t u r d b q hb hq)
theorem iblk1_1_apply (c : Dev nD) (t : Fin cfg1.N) (u : Fin 1) (b : Fin 8) (hb : b.val = t.val / 16) (k : Fin 2048) (d : Fin 256) :
    iblk1 V c 1 t (ix3 u k d) = (V c main_v3 : S8x2048x256.Idx → EReal) (ix3 b k d) :=
  congrArg (V c main_v3 : S8x2048x256.Idx → EReal) (emb1 t u k d b hb)
theorem iblk1_2_apply (c : Dev nD) (t : Fin cfg1.N) (u : Fin 1) (b : Fin 8) (hb : b.val = t.val / 16) (k : Fin 2048) (d : Fin 256) :
    iblk1 V c 2 t (ix3 u k d) = (V c main_v4 : S8x2048x256.Idx → EReal) (ix3 b k d) :=
  congrArg (V c main_v4 : S8x2048x256.Idx → EReal) (emb2 t u k d b hb)

/-- What point `t` writes back is block `t` of the attention over the three arrays the region is entered with. -/
theorem flushed3_eq (c : Dev nD) (t : Fin cfg1.N) :
    (dat1 V c).flushed 3 t = ((cfg1.win 3).blk t).view.read (Elt Ideal) (attnOf (V c main_v2) (V c main_v3) (V c main_v4)) := by
  show (cfg1.win 3).cut (grid1.coords t) ((dat1 V c).after 3 t) = _
  rw [after1_3]
  unfold out1_3
  rw [View.canon_unit_zero hz]
  simp only [View.ld_unit_zero (S := S1x128x256) hz, View.ld_unit_zero (S := S1x2048x256) hz]
  funext j
  obtain ⟨u, r, e, rfl⟩ : ∃ (u : Fin 1) (r : Fin 128) (e : Fin 256), j = ix3 u r e := ⟨j 0, j 1, j 2, eq_ix3 j⟩
  have ht : t.val < 128 := lt_of_lt_of_eq t.isLt N_1
  obtain ⟨-, -, -, -, -, -, -, -, -, -, -, -, hc⟩ := idx_facts t
  have hb : (⟨t.val / 16, by omega⟩ : Fin 8).val = t.val / 16 := rfl
  have hq : (⟨t.val % 16 * 128 + r.val, by omega⟩ : Fin 2048).val = t.val % 16 * 128 + r.val := rfl
  show k1_pay1 (k1_pay2 (grid1.coords t) (iblk1 V c 0 t) (iblk1 V c 1 t) (iblk1 V c 2 t)) (ix3 u r e)
    = attnOf (V c main_v2) (V c main_v3) (V c main_v4) (((cfg1.win 3).blk t).view.emb (ix3 u r e))
  rw [emb3 t u r e ⟨t.val / 16, by omega⟩ ⟨t.val % 16 * 128 + r.val, by omega⟩ hb hq]
  unfold k1_pay1
  refine (shapeCast_addUnit_apply ![128, 256] _ shapeCasts_S128x256_S1x128x256 (ix3 u r e)).trans ?_
  refine (Cert.TileValue.attn_tile (grid1.coords t) _ _ _ r e ⟨t.val % 16 * 128 + r.val, by omega⟩ (by rw [hc])).trans ?_
  unfold attnOf
  simp only [iblk1_0_apply V c t 0 r ⟨t.val / 16, by omega⟩ ⟨t.val % 16 * 128 + r.val, by omega⟩ hb hq,
    iblk1_1_apply V c t 0 ⟨t.val / 16, by omega⟩ hb, iblk1_2_apply V c t 0 ⟨t.val / 16, by omega⟩ hb]

/-- An index of the result is in point `t`'s block iff each coordinate is in the block's range on its axis. -/
theorem mem_blk3 (t : Fin cfg1.N) (i : S8x2048x256.Idx) :
    i ∈ ((cfg1.win 3).blk t).view.set ↔ ∀ a : Fin 3, win1_3.index t a * S1x128x256.size a ≤ (i a).val ∧ (i a).val < win1_3.index t a * S1x128x256.size a + S1x128x256.size a := by
  show i ∈ ((View.whole main_v5).slice (win1_3.rect t)).set ↔ _
  rw [View.set_slice_whole, Rect.mem_set_unit]
  exact Iff.rfl

/-- Entry (b, q, e) lies in the block of point `16 b + q / 128`: the 128 blocks cover the array. -/
theorem cover3 (i : S8x2048x256.Idx) : ∃ t : Fin cfg1.N, (cfg1.win 3).flush t = true ∧ i ∈ ((cfg1.win 3).blk t).view.set := by
  have hi0 : (i 0).val < 8 := (i 0).isLt
  have hi1 : (i 1).val < 2048 := (i 1).isLt
  have hi2 : (i 2).val < 256 := (i 2).isLt
  have hN : cfg1.N = 128 := N_1
  refine ⟨⟨(i 0).val * 16 + (i 1).val / 128, by rw [hN]; omega⟩, flush1_3 _, ?_⟩
  obtain ⟨-, -, -, -, -, -, -, -, -, e0, e1, e2, -⟩ := idx_facts ⟨(i 0).val * 16 + (i 1).val / 128, by rw [hN]; omega⟩
  rw [mem_blk3]
  intro a
  match a with
  | ⟨0, _⟩ =>
    show win1_3.index _ (0 : Fin 3) * 1 ≤ (i 0).val ∧ (i 0).val < win1_3.index _ (0 : Fin 3) * 1 + 1
    rw [e0]; show ((i 0).val * 16 + (i 1).val / 128) / 16 * 1 ≤ (i 0).val ∧ (i 0).val < ((i 0).val * 16 + (i 1).val / 128) / 16 * 1 + 1; omega
  | ⟨1, _⟩ =>
    show win1_3.index _ (1 : Fin 3) * 128 ≤ (i 1).val ∧ (i 1).val < win1_3.index _ (1 : Fin 3) * 128 + 128
    rw [e1]; show ((i 0).val * 16 + (i 1).val / 128) % 16 * 128 ≤ (i 1).val ∧ (i 1).val < ((i 0).val * 16 + (i 1).val / 128) % 16 * 128 + 128; omega
  | ⟨2, _⟩ =>
    show win1_3.index _ (2 : Fin 3) * 256 ≤ (i 2).val ∧ (i 2).val < win1_3.index _ (2 : Fin 3) * 256 + 256
    rw [e2]; omega

/-- The result array after the region: the attention over the three arrays the region is entered with. -/
theorem final3 (c : Dev nD) : (dat1 V c).arrAt 3 cfg1.N = attnOf (V c main_v2) (V c main_v3) (V c main_v4) :=
  (dat1 V c).arrAt_eq_of_cover 3 _ (fun t _ => flushed3_eq V c t) cover3

end Arrays
end Cert.KernelIdeal.AttnValue
end
-- ==== Proof.KernelValue.lean ====
/-
  The idealized kernel's result as one function of its four arguments: chaining the two regions through the host reshapes,
  the attention region's result array is the specification's `out`. Region 0 leaves each projection as `X · Wᵀ` of the
  activations regrouped to [16384, 256]; regrouped back to [8, 2048, 256], entry (b, s, e) is row (b, s) of the activations
  against row e of the weights — the specification's `proj` — since row `2048 b + s` of the regrouped array is row (b, s).
-/
import proofs.«158596_j65249143161555_1_alg».proof.Proof.KernelRun
import proofs.«158596_j65249143161555_1_alg».proof.Proof.ProjValue
import proofs.«158596_j65249143161555_1_alg».proof.Proof.AttnValue
import proofs.«158596_j65249143161555_1_alg».proof.Proof.LibLayout
import proofs.«158596_j65249143161555_1_alg».proof.Proof.Spec

noncomputable section

namespace Cert.KernelIdeal.Whole

open Cert.KernelIdeal Cert.KernelIdeal.Gen Cert.KernelIdeal.GenP
open Idealize.ShloMosaic Idealize.ShloMosaic.TcCoe Idealize.ShloMosaic.ValueIdx Idealize.SL.Sem
open Cert.KernelIdeal.RunValue Cert.KernelIdeal.ProjValue Cert.KernelIdeal.AttnValue

/-- A projection computed on the regrouped activations and regrouped back is the specification's projection. -/
theorem proj_apply (E : Cert.Attn.Arr3) (W : Cert.Attn.Mat) (b : Fin 8) (s : Fin 2048) (e : Fin 256) :
    shapeCast S8x2048x256 (matT (shapeCast S16384x256 E shapeCasts_S8x2048x256_S16384x256) W) shapeCasts_S16384x256_S8x2048x256 (ix3 b s e)
      = Cert.Attn.proj E W b s e := by
  have hb := b.isLt
  have hs := s.isLt
  have hr : (⟨b.val * 2048 + s.val, by omega⟩ : Fin 16384).val = b.val * 2048 + s.val := rfl
  refine (Cert.LibLayout.shapeCast_dc_abc_apply _ shapeCasts_S16384x256_S8x2048x256 b s e ⟨b.val * 2048 + s.val, by omega⟩ hr).trans ?_
  unfold matT rowDot Cert.Attn.proj
  refine Finset.sum_congr rfl fun d _ => ?_
  exact congrArg (· * W (ix2 e d)) (Cert.LibLayout.shapeCast_abc_dc_apply E shapeCasts_S8x2048x256_S16384x256 ⟨b.val * 2048 + s.val, by omega⟩ d b s hr)

variable (m : (ℓ : Loc nD τ sig) → Buf (Elt Ideal) ℓ) (ρ : Dev nD → PrngReg)

/-- Attention over three arrays that are the projections of `E` is the specification's result. -/
theorem attnOf_proj (Qa Ka Va E : Cert.Attn.Arr3) (WQ WK WV : Cert.Attn.Mat)
    (hQ : ∀ (b : Fin 8) (s : Fin 2048) (e : Fin 256), Qa (ix3 b s e) = Cert.Attn.proj E WQ b s e)
    (hK : ∀ (b : Fin 8) (s : Fin 2048) (e : Fin 256), Ka (ix3 b s e) = Cert.Attn.proj E WK b s e)
    (hV : ∀ (b : Fin 8) (s : Fin 2048) (e : Fin 256), Va (ix3 b s e) = Cert.Attn.proj E WV b s e) :
    attnOf Qa Ka Va = Cert.Attn.out E WQ WK WV := by
  funext i
  obtain ⟨b, q, e, rfl⟩ : ∃ (b : Fin 8) (q : Fin 2048) (e : Fin 256), i = ix3 b q e := ⟨i 0, i 1, i 2, eq_ix3 i⟩
  unfold attnOf Cert.Attn.out
  simp only [hQ, hK, hV]

/-- The query array region 1 is entered with is the specification's query projection of the arguments; -/
theorem Q_apply (c : Dev nD) (b : Fin 8) (s : Fin 2048) (e : Fin 256) :
    (V3 m ρ c main_v2 : S8x2048x256.Idx → EReal) (ix3 b s e)
      = Cert.Attn.proj (m ((c.tc : Thread nD τ).loc main_arg0)) (m ((c.tc : Thread nD τ).loc main_arg1)) b s e := by
  rw [V3_main_v2 m ρ c, final4 (V1 m ρ) c, V1_main_v0 m ρ c, V1_main_arg1 m ρ c]
  exact proj_apply _ _ b s e
/-- the key array the key projection; -/
theorem K_apply (c : Dev nD) (b : Fin 8) (s : Fin 2048) (e : Fin 256) :
    (V3 m ρ c main_v3 : S8x2048x256.Idx → EReal) (ix3 b s e)
      = Cert.Attn.proj (m ((c.tc : Thread nD τ).loc main_arg0)) (m ((c.tc : Thread nD τ).loc main_arg2)) b s e := by
  rw [V3_main_v3 m ρ c, final5 (V1 m ρ) c, V1_main_v0 m ρ c, V1_main_arg2 m ρ c]
  exact proj_apply _ _ b s e
/-- the value array the value projection. -/
theorem V_apply (c : Dev nD) (b : Fin 8) (s : Fin 2048) (e : Fin 256) :
    (V3 m ρ c main_v4 : S8x2048x256.Idx → EReal) (ix3 b s e)
      = Cert.Attn.proj (m ((c.tc : Thread nD τ).loc main_arg0)) (m ((c.tc : Thread nD τ).loc main_arg3)) b s e := by
  rw [V3_main_v4 m ρ c, final6 (V1 m ρ) c, V1_main_v0 m ρ c, V1_main_arg3 m ρ c]
  exact proj_apply _ _ b s e

/-- The result array after the run is the specification's function of the four arguments as launched. -/
theorem result_eq (c : Dev nD) :
    (dat1 (V3 m ρ) c).arrAt 3 cfg1.N
      = Cert.Attn.out (m ((c.tc : Thread nD τ).loc main_arg0)) (m ((c.tc : Thread nD τ).loc main_arg1))
          (m ((c.tc : Thread nD τ).loc main_arg2)) (m ((c.tc : Thread nD τ).loc main_arg3)) :=
  (final3 (V3 m ρ) c).trans (attnOf_proj _ _ _ _ _ _ _ (Q_apply m ρ c) (K_apply m ρ c) (V_apply m ρ c))

/-- Every weakly fair execution of the idealized kernel terminates with the result at the specification's function of the
    arguments and the arguments unchanged. -/
theorem run : θ_run defs (onTc (τ := τ) (main (F := Ideal))) ⟨m, fun _ => 0, ρ⟩ (fun r => ∀ c : Dev nD,
      r.2.mem ((c.tc : Thread nD τ).loc main_v5)
        = Cert.Attn.out (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (result_eq m ρ c), (h c).2⟩) (run_blocks m ρ)

end Cert.KernelIdeal.Whole

end
-- ==== Proof.RefSide.lean ====
/-
  The reference program, read stage by stage at an index written by its coordinates, is the causal masked-softmax
  attention of the specification.

  For a batch b, query position q, key position k and lane e the stages are:
    the three projections                  (E · Wᵀ)[b, s, e] = ∑_d E[b, s, d] · W[e, d];
    the scaled score                       w[k] = (∑_d Q[b, q, d] · K[b, k, d]) / 16, and a quotient by 16 is the product with 1/16;
    the mask                               0 where w[k] = 0, else the lower-triangle entry (1 if k ≤ q, else 0);
    the row maximum                        the fold of max from −∞ over all keys;
    the masked exponential                 exp (w[k] − max) · mask[k];
    the denominator                        0 + ∑_k' (masked exponential) + ε;
    the attention weight                   masked exponential / denominator;
    the result                             ∑_k weight[k] · V[b, k, e].
  Every layout stage (a broadcast of a scalar, of the [2048, 2048] triangle along the batch, of a per-row value along
  the keys) reads its operand at the index with the broadcast coordinates dropped; each such index is worked out here
  from coordinates of literal extents.
-/
import proofs.«158596_j65249143161555_1_alg».proof.Proof.Gen.ReferenceIdeal.Read
import proofs.«158596_j65249143161555_1_alg».proof.Proof.Spec

noncomputable section

namespace Cert.RefSide

open Idealize.ShloMosaic Idealize.ShloMosaic.ValueIdx Cert.ReferenceIdeal Cert.ReferenceIdeal.Read

/-- The activations [8, 2048, 256] and a weight matrix [256, 256], as arrays of extended reals. -/
abbrev Arr := (⟨S8x2048x256, .f32⟩ : BufTy).Contents (Elt Ideal)
abbrev Wt := (⟨S256x256, .f32⟩ : BufTy).Contents (Elt Ideal)

/-! ## The projections -/

/-- The left operand of a projection's product at (b, s, e), contraction coordinate k: the activation at (b, s, k). -/
theorem lidx0 (b : Fin 8) (s : Fin 2048) (e k : Fin 256) : lidx_main_v0 (ix3 b s e) k = ix3 b s k := by
  funext a; match a with | ⟨0, _⟩ => rfl | ⟨1, _⟩ => rfl | ⟨2, _⟩ => rfl
/-- The right operand: the weight at (e, k). -/
theorem ridx0 (b : Fin 8) (s : Fin 2048) (e k : Fin 256) : ridx_main_v0 (ix3 b s e) k = ix2 e k := by
  funext a; match a with | ⟨0, _⟩ => rfl | ⟨1, _⟩ => rfl

/-- The first projection at (b, s, e) is ∑_d E[b, s, d] · W[e, d]. -/
theorem v0_proj (E : Arr) (W : Wt) (b : Fin 8) (s : Fin 2048) (e : Fin 256) :
    val_main_v0 (F := Ideal) E W (ix3 b s e) = Attn.proj E W b s e := by
  rw [val_main_v0_apply]
  unfold Attn.proj
  refine Finset.sum_congr rfl fun k _ => ?_
  rw [lidx0, ridx0]

/-- The second and third projections are the same contraction of the activations with another weight matrix. -/
theorem v1_proj (E : Arr) (W : Wt) (b : Fin 8) (s : Fin 2048) (e : Fin 256) :
    val_main_v1 (F := Ideal) E W (ix3 b s e) = Attn.proj E W b s e := v0_proj E W b s e
theorem v2_proj (E : Arr) (W : Wt) (b : Fin 8) (s : Fin 2048) (e : Fin 256) :
    val_main_v2 (F := Ideal) E W (ix3 b s e) = Attn.proj E W b s e := v0_proj E W b s e

/-! ## The scaled score -/

/-- The batched product Q · Kᵀ at (b, q, k), contraction coordinate d, multiplies Q[b, q, d] … -/
theorem lidx3 (b : Fin 8) (q k : Fin 2048) (d : Fin 256) : lidx_main_v3 (ix3 b q k) d = ix3 b q d := by
  funext a; match a with | ⟨0, _⟩ => rfl | ⟨1, _⟩ => rfl | ⟨2, _⟩ => rfl
/-- … with K[b, k, d]. -/
theorem ridx3 (b : Fin 8) (q k : Fin 2048) (d : Fin 256) : ridx_main_v3 (ix3 b q k) d = ix3 b k d := by
  funext a; match a with | ⟨0, _⟩ => rfl | ⟨1, _⟩ => rfl | ⟨2, _⟩ => rfl

/-- The broadcast divisor is 16 everywhere. -/
theorem v4_const (i : S8x2048x2048.Idx) : val_main_v4 (F := Ideal) i = Ideal.ofBits .f32 0x41800000#32 := by
  rw [val_main_v4_apply]; rfl

/-- The score at (b, q, k): the quotient by 16 of the row product is its product with 1/16. -/
theorem v5_score (E : Arr) (WQ WK : Wt) (b : Fin 8) (q k : Fin 2048) :
    val_main_v5 (F := Ideal) E WQ WK (ix3 b q k)
      = Attn.score (fun d => Attn.proj E WQ b q d) (fun d => Attn.proj E WK b k d) := by
  rw [val_main_v5_apply, v4_const, val_main_v3_apply]
  refine (Attn.div_sixteen _).trans ?_
  unfold Attn.score
  refine congrArg (· * _) (Finset.sum_congr rfl fun d _ => ?_)
  rw [lidx3, ridx3, v0_proj, v1_proj]

/-! ## The mask -/

/-- A natural number below 2048, as a 32-bit word read signed, is itself: it is below 2³¹. -/
theorem toInt_small (n : Nat) (h : n < 2048) : (BitVec.ofNat 32 n).toInt = (n : Int) := by
  have e : (BitVec.ofNat 32 n).toNat = n := by
    rw [BitVec.toNat_ofNat]; exact Nat.mod_eq_of_lt (by omega)
  rw [BitVec.toInt_eq_toNat_of_lt (by rw [e]; omega), e]

/-- The lower-triangle bit: the signed comparison "row + 0 ≥ column" of two positions below 2048 is "column ≤ row". -/
theorem tril_bit (q k : Fin 2048) :
    IntOp.cmpi .sge (IntOp.addi (BitVec.ofNat 32 q.val) 0#32) (BitVec.ofNat 32 k.val)
      = BitVec.ofBool (decide (k.val ≤ q.val)) := by
  unfold IntOp.cmpi IntOp.addi
  rw [BitVec.add_zero]
  show BitVec.ofBool ((BitVec.ofNat 32 k.val).sle (BitVec.ofNat 32 q.val)) = _
  rw [BitVec.sle_eq_decide, toInt_small k.val k.isLt, toInt_small q.val q.isLt]
  congr 1
  exact decide_eq_decide.mpr Int.ofNat_le

/-- The lower triangle of ones at (q, k): 1 if k ≤ q, else 0. -/
theorem v7_tril (q k : Fin 2048) :
    val_main_v7 (F := Ideal) (ix2 q k) = if k.val ≤ q.val then (1 : EReal) else 0 := by
  rw [val_main_v7_apply, val_main_call0_v4_apply, val_main_call0_v2_apply, val_main_call0_v0_apply,
    val_main_call0_v1_apply, val_main_call0_c_apply, val_main_call0_v3_apply, val_main_v6_apply,
    val_main_cst_0_apply, val_main_call0_v5_apply, val_main_call0_cst_apply]
  show Scalar.select (IntOp.cmpi .sge (IntOp.addi (BitVec.ofNat 32 q.val) 0#32) (BitVec.ofNat 32 k.val))
    (Ideal.ofBits .f32 0x3F800000#32) (Ideal.ofBits .f32 0x00000000#32) = _
  rw [tril_bit, Attn.ofBits_one, Attn.ofBits_zero]
  by_cases h : k.val ≤ q.val
  · rw [if_pos h, decide_eq_true h]; exact select_one _ _
  · rw [if_neg h, decide_eq_false h]; exact select_zero _ _

/-- The triangle broadcast along the batch reads, at (b, q, k), the triangle at (q, k). -/
theorem idx_mask (b : Fin 8) (q k : Fin 2048) :
    idx_main_v11 (idx_main_call1_v0 (ix3 b q k)) = ix2 q k := by
  funext a; match a with | ⟨0, _⟩ => rfl | ⟨1, _⟩ => rfl

theorem mask_tril (b : Fin 8) (q k : Fin 2048) :
    val_main_call1_v0 (F := Ideal) (ix3 b q k) = if k.val ≤ q.val then (1 : EReal) else 0 := by
  rw [val_main_call1_v0_apply, val_main_v11_apply, idx_mask, v7_tril]

/-- The two broadcast zeros (the value compared against, and the value written where the score is zero). -/
theorem v8_zero (i : S8x2048x2048.Idx) : val_main_v8 (F := Ideal) i = 0 := by
  rw [val_main_v8_apply]; exact Attn.ofBits_zero
theorem v10_zero (i : S8x2048x2048.Idx) : val_main_v10 (F := Ideal) i = 0 := by
  rw [val_main_v10_apply]; exact Attn.ofBits_zero

/-- "0 where the score is 0, else the triangle entry" is "1 if k ≤ q and the score is not 0, else 0". -/
theorem select_keep (q k : Fin 2048) (w : EReal) :
    Scalar.select (Ideal.cmp .oeq w 0) (0 : EReal) (if k.val ≤ q.val then (1 : EReal) else 0) = Attn.keep q k w := by
  have hc : Ideal.cmp .oeq w 0 = BitVec.ofBool (decide (w = 0)) := rfl
  rw [hc]
  unfold Attn.keep
  by_cases hw : w = 0
  · rw [decide_eq_true hw]
    refine (select_one _ _).trans ?_
    exact (if_neg (fun h => h.2 hw)).symm
  · rw [decide_eq_false hw]
    refine (select_zero _ _).trans ?_
    by_cases h : k.val ≤ q.val
    · exact (if_pos h).trans (if_pos ⟨h, hw⟩).symm
    · exact (if_neg h).trans (if_neg (fun h' => h h'.1)).symm

/-- The mask at (b, q, k) is the specification's, at the score of (b, q, k). -/
theorem v12_keep (E : Arr) (WQ WK : Wt) (b : Fin 8) (q k : Fin 2048) :
    val_main_v12 (F := Ideal) E WQ WK (ix3 b q k)
      = Attn.keep q k (val_main_v5 (F := Ideal) E WQ WK (ix3 b q k)) := by
  rw [val_main_v12_apply, val_main_v9_apply, v8_zero, v10_zero, mask_tril]
  exact select_keep q k _

/-! ## The row maximum -/

/-- The index over (b, q) with key coordinate k inserted on the reduced (last) axis is (b, q, k). -/
theorem lift_d2 (h : S8x2048x2048.Reduces [2] S8x2048) (b : Fin 8) (q k : Fin 2048) :
    h.lift (ix2 b q) k = ix3 b q k := by
  funext a; refine Fin.ext ?_
  match a with | ⟨0, _⟩ => rfl | ⟨1, _⟩ => rfl | ⟨2, _⟩ => rfl

/-- The maximum over the key axis at (b, q): max is commutative and associative, so the reduction is the fold of max
    from −∞ over the 2048 key coordinates of row (b, q). -/
theorem v13_rowMax (E : Arr) (WQ WK : Wt) (b : Fin 8) (q : Fin 2048) :
    val_main_v13 (F := Ideal) E WQ WK (ix2 b q)
      = Attn.rowMax (fun k => val_main_v5 (F := Ideal) E WQ WK (ix3 b q k)) := by
  unfold val_main_v13
  generalize val_main_v5 (F := Ideal) E WQ WK = y
  have h : S8x2048x2048.Reduces [2] S8x2048 := by decide
  refine (Host.reduce_eq_fold_single (FloatOps.maximumf (F := Ideal) (φ := .f32)) y (val_main_cst_3 (F := Ideal))
    Facts₀.reducesTo_S8x2048x2048_S8x2048_d2 h Facts₀.h_S_ (ix2 b q)).trans ?_
  unfold Attn.rowMax
  have hf : (y ∘ h.lift (ix2 b q)) = fun k : Fin 2048 => y (ix3 b q k) := by
    funext k; exact congrArg y (lift_d2 h b q k)
  rw [hf]
  rfl

/-! ## The masked exponential, its row sum, and the weight -/

/-- The row maximum broadcast along the keys reads, at (b, q, k), the maximum of row (b, q). -/
theorem idx_max (b : Fin 8) (q k : Fin 2048) :
    idx_main_v14 (idx_main_v15 (ix3 b q k)) = ix2 b q := by
  funext a; match a with | ⟨0, _⟩ => rfl | ⟨1, _⟩ => rfl

/-- The masked exponential at (b, q, k): exp (w[k] − max_k' w[k']) · mask[k]. -/
theorem v18_num (E : Arr) (WQ WK : Wt) (b : Fin 8) (q k : Fin 2048) :
    val_main_v18 (F := Ideal) E WQ WK (ix3 b q k)
      = Attn.num q (fun k' => val_main_v5 (F := Ideal) E WQ WK (ix3 b q k')) k := by
  rw [val_main_v18_apply, val_main_v17_apply, val_main_v16_apply, val_main_v15_apply, val_main_v14_apply,
    idx_max, v13_rowMax, v12_keep]
  rfl

/-- The k-th term of the row sum at (b, q) is the entry (b, q, k). -/
theorem idx_sum (b : Fin 8) (q k : Fin 2048) : idx_main_v19 (ix2 b q) k = ix3 b q k := by
  funext a; match a with | ⟨0, _⟩ => rfl | ⟨1, _⟩ => rfl | ⟨2, _⟩ => rfl

/-- The row sum at (b, q): the initial value is 0, so it is the sum of the masked exponentials over all keys. -/
theorem v19_sum (E : Arr) (WQ WK : Wt) (b : Fin 8) (q : Fin 2048) :
    val_main_v19 (F := Ideal) E WQ WK (ix2 b q)
      = ∑ k : Fin 2048, Attn.num q (fun k' => val_main_v5 (F := Ideal) E WQ WK (ix3 b q k')) k := by
  rw [val_main_v19_apply, val_main_cst_4_apply]
  refine (congrArg (· + _) Attn.ofBits_zero).trans ?_
  rw [zero_add]
  refine Finset.sum_congr rfl fun k _ => ?_
  rw [idx_sum, v18_num]

/-- The denominator broadcast along the keys reads, at (b, q, k), the row sum of (b, q). -/
theorem idx_den (b : Fin 8) (q k : Fin 2048) :
    idx_main_v20 (idx_main_v23 (ix3 b q k)) = ix2 b q := by
  funext a; match a with | ⟨0, _⟩ => rfl | ⟨1, _⟩ => rfl

/-- The attention weight at (b, q, k): the masked exponential over the row sum plus ε. -/
theorem v24_weight (E : Arr) (WQ WK : Wt) (b : Fin 8) (q k : Fin 2048) :
    val_main_v24 (F := Ideal) E WQ WK (ix3 b q k)
      = Attn.weight q (fun k' => val_main_v5 (F := Ideal) E WQ WK (ix3 b q k')) k := by
  rw [val_main_v24_apply, val_main_v23_apply, val_main_v22_apply, val_main_v20_apply, val_main_v21_apply,
    val_main_cst_5_apply, idx_den, v19_sum, v18_num]
  rfl

/-! ## The result -/

/-- The batched product weights · V at (b, q, e), contraction coordinate k, multiplies the weight at (b, q, k) … -/
theorem lidx25 (b : Fin 8) (q : Fin 2048) (e : Fin 256) (k : Fin 2048) : lidx_main_v25 (ix3 b q e) k = ix3 b q k := by
  funext a; match a with | ⟨0, _⟩ => rfl | ⟨1, _⟩ => rfl | ⟨2, _⟩ => rfl
/-- … with V[b, k, e]. -/
theorem ridx25 (b : Fin 8) (q : Fin 2048) (e : Fin 256) (k : Fin 2048) : ridx_main_v25 (ix3 b q e) k = ix3 b k e := by
  funext a; match a with | ⟨0, _⟩ => rfl | ⟨1, _⟩ => rfl | ⟨2, _⟩ => rfl

/-- The result at (b, q, e) is ∑_k weight[k] · V[b, k, e], over the scores of row (b, q). -/
theorem v25_mix (E : Arr) (WQ WK WV : Wt) (b : Fin 8) (q : Fin 2048) (e : Fin 256) :
    val_main_v25 (F := Ideal) E WQ WK WV (ix3 b q e)
      = Attn.mix q (fun k => val_main_v5 (F := Ideal) E WQ WK (ix3 b q k))
          (fun k => val_main_v2 (F := Ideal) E WV (ix3 b k e)) := by
  rw [val_main_v25_apply]
  unfold Attn.mix
  refine Finset.sum_congr rfl fun k _ => ?_
  rw [lidx25, ridx25, v24_weight]

/-- The reference program's result is the specification's attention, entry by entry: split the index into
    (b, q, e), read the last product, and put the scores and the values in the specification's words. -/
theorem ref_eq
    (E : (⟨Cert.ReferenceIdeal.S8x2048x256, .f32⟩ : BufTy).Contents (Elt Ideal))
    (WQ WK WV : (⟨Cert.ReferenceIdeal.S256x256, .f32⟩ : BufTy).Contents (Elt Ideal)) :
    Cert.ReferenceIdeal.Read.val_main_v25 (F := Ideal) E WQ WK WV = Cert.Attn.out E WQ WK WV := by
  funext i
  obtain ⟨b, q, e, rfl⟩ : ∃ (b : Fin 8) (q : Fin 2048) (e : Fin 256), i = ix3 b q e := ⟨i 0, i 1, i 2, eq_ix3 i⟩
  rw [v25_mix]
  have h5 : (fun k => val_main_v5 (F := Ideal) E WQ WK (ix3 b q k))
      = fun k => Attn.score (fun d => Attn.proj E WQ b q d) (fun d => Attn.proj E WK b k d) :=
    funext fun k => v5_score E WQ WK b q k
  have h2 : (fun k => val_main_v2 (F := Ideal) E WV (ix3 b k e)) = fun k => Attn.proj E WV b k e :=
    funext fun k => v2_proj E WV b k e
  rw [h5, h2]
  rfl

end Cert.RefSide

end
-- ==== Proof.lean ====
/-
  The certificate of a two-region attention kernel against its jnp reference, over the extended reals.

  The kernel projects the activations E [8, 2048, 256] by three weight matrices (region 0: Q = E·WQᵀ, K = E·WKᵀ,
  V = E·WVᵀ on the activations regrouped to [16384, 256], 512 rows per grid point) and then, per batch and block of 128
  query rows (region 1), forms the scores Q·Kᵀ scaled by 1/16, masks them causally and where a score is exactly zero,
  takes the row maximum over all keys, exponentiates, normalises by the row sum plus ε and mixes the value rows. The
  reference does the same on whole arrays, dividing the scores by 16 instead. Both are the one function `Cert.Attn.out`
  of the four arguments (Proof/Spec.lean), index by index, on every extended real: the only differences are the tiling,
  the order of the sums (commutative and associative) and `x · (1/16)` against `x / 16`, equal because 16 is a nonzero
  real. No finiteness of the inputs is used.

  The three frames: the two kernel programs' by the frame certificate of each (Proof/FrameKernel.lean,
  Proof/FrameKernelIdeal.lean), the reference's by its run with the result dropped. The idealization rewrote nothing, so
  `preserves` is trivial. `algebraic`: the kernel's run ends with its result at `Cert.Attn.out` of the arguments
  (Proof/KernelValue.lean, over Proof/KernelRun.lean, Proof/ProjValue.lean, Proof/AttnValue.lean and Proof/TileValue.lean),
  the reference's at its composed term, which is the same function (Proof/RefSide.lean) of arguments that agree.
-/
import proofs.«158596_j65249143161555_1_alg».proof.Defs
import proofs.«158596_j65249143161555_1_alg».proof.Proof.Gen.Kernel
import proofs.«158596_j65249143161555_1_alg».proof.Proof.Gen.Kernel.Skeleton
import proofs.«158596_j65249143161555_1_alg».proof.Proof.Gen.Kernel.Launch
import proofs.«158596_j65249143161555_1_alg».proof.Proof.Gen.Kernel.Points
import proofs.«158596_j65249143161555_1_alg».proof.Proof.FrameKernel
import proofs.«158596_j65249143161555_1_alg».proof.Proof.Gen.KernelIdeal
import proofs.«158596_j65249143161555_1_alg».proof.Proof.Gen.KernelIdeal.Skeleton
import proofs.«158596_j65249143161555_1_alg».proof.Proof.Gen.KernelIdeal.Launch
import proofs.«158596_j65249143161555_1_alg».proof.Proof.Gen.KernelIdeal.Points
import proofs.«158596_j65249143161555_1_alg».proof.Proof.FrameKernelIdeal
import proofs.«158596_j65249143161555_1_alg».proof.Proof.Gen.ReferenceIdeal
import proofs.«158596_j65249143161555_1_alg».proof.Proof.Gen.ReferenceIdeal.Run
import proofs.«158596_j65249143161555_1_alg».proof.Proof.Gen.ReferenceIdeal.Read
import proofs.«158596_j65249143161555_1_alg».proof.Proof.Gen.Pre_finite_inputs
import proofs.«158596_j65249143161555_1_alg».proof.Proof.KernelValue
import proofs.«158596_j65249143161555_1_alg».proof.Proof.RefSide
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.GenP.frame m ρ

/-- So does the idealized kernel. -/
theorem frame_kernelIdeal : Cert.frame_KernelIdeal := fun m ρ _ => Cert.KernelIdeal.GenP.frame m ρ

/-- The reference runs and leaves its arguments unchanged: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both idealized programs end with their results at `Cert.Attn.out` of the
    kernel's arguments. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v25_eq, Cert.RefSide.ref_eq, (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
